-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S256x256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg6 : FVec F S512x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S10000x256 .f32) (main_arg1 : FVec F S10000x10000 .f32) (main_arg2 : IVec S320000 32) (main_arg3 : IVec S320000 32) (main_arg4 : FVec F S256x512 .f32) (main_arg5 : FVec F S512 .f32) (main_arg6 : FVec F S512x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_v13 main_v16
-- ==== Kernel.lean ====
abbrev S10000x256 : Shape := ⟨2, ![10000, 256]⟩
abbrev S10000x10000 : Shape := ⟨2, ![10000, 10000]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S1x512 : Shape := ⟨2, ![1, 512]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S1000x256 : Shape := ⟨2, ![1000, 256]⟩
abbrev S1000x512 : Shape := ⟨2, ![1000, 512]⟩
abbrev S200x10000 : Shape := ⟨2, ![200, 10000]⟩
abbrev S200x256 : Shape := ⟨2, ![200, 256]⟩

abbrev nBuf : Space → Nat
  | .hbm => 32
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1x512, .f32⟩
  | .hbm, ⟨13, _⟩ => ⟨S1x256, .f32⟩
  | .hbm, ⟨14, _⟩ => ⟨S10000x256, .bf16⟩
  | .hbm, ⟨15, _⟩ => ⟨S1x256, .f32⟩
  | .hbm, ⟨16, _⟩ => ⟨S1x256, .f32⟩
  | .hbm, ⟨17, _⟩ => ⟨S10000x256, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x256, .f32⟩
  | .hbm, ⟨27, _⟩ => ⟨S_, .f32⟩
  | .hbm, ⟨28, _⟩ => ⟨S10000x256, .f32⟩
  | .hbm, ⟨29, _⟩ => ⟨S320000x1, .i32⟩
  | .hbm, ⟨30, _⟩ => ⟨S10000x256, .f32⟩
  | .hbm, ⟨31, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S1000x256, .bf16⟩
  | .local _ .vmem, ⟨7, _⟩ => ⟨S1000x256, .bf16⟩
  | .local _ .vmem, ⟨8, _⟩ => ⟨S200x10000, .f32⟩
  | .local _ .vmem, ⟨9, _⟩ => ⟨S200x10000, .f32⟩
  | .local _ .vmem, ⟨10, _⟩ => ⟨S10000x256, .bf16⟩
  | .local _ .vmem, ⟨11, _⟩ => ⟨S200x256, .bf16⟩
  | .local _ .vmem, ⟨12, _⟩ => ⟨S200x256, .bf16⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S200x256, .f32⟩
  | .local _ .vmem, ⟨18, _⟩ => ⟨S200x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c : Ref sig .tc := ⟨.hbm, 18, rfl⟩
abbrev main_call0_v6 : Ref sig .tc := ⟨.hbm, 19, rfl⟩
abbrev main_call0_v7 : Ref sig .tc := ⟨.hbm, 20, rfl⟩
abbrev main_call0_c_0 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S200x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S512_S1x512 : S512.ShapeCasts S1x512
  shapeCasts_S256_S1x256 : S256.ShapeCasts S1x256
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  packedbf16_S1000x256_S1000x256_0_0 : (Rect.unit (s := S1000x256) ![0, 0] S1000x256.size inb_S1000x256_S1000x256_0_0).PackedRows (EltTy.packing .bf16)
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  broadcasts_S1x256_S200x256 : S1x256.Broadcasts S200x256
  inb_S200x256_S200x256_0_0 : ∀ a, (![0, 0] : Fin 2 → Nat) a + S200x256.size a ≤ S200x256.size a
  h_S200x256 : 0 < S200x256.numel
  shapeCasts_S200x256_S200x256 : S200x256.ShapeCasts S200x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x512_S1000x512_1_0_0_1_n_n_wf : DotDims.WF S1000x256 S256x512 S1000x512 [1] [0] [0] [1] [] []
  dot_S1000x512_S512x256_S1000x256_1_0_0_1_n_n_wf : DotDims.WF S1000x512 S512x256 S1000x256 [1] [0] [0] [1] [] []
  dot_S200x10000_S10000x256_S200x256_1_0_0_1_n_n_wf : DotDims.WF S200x10000 S10000x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .bf16 = 32 ∨ (Rect.block (s := S10000x256) S1000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S10000x256.size a
  hwx1_2 : ∀ i : grid1.Coords, EltTy.bits .bf16 = 32 ∨ (Rect.block (s := S10000x256) S200x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x256.size a ≤ S10000x256.size a
  hwx1_7 : ∀ i : grid1.Coords, EltTy.bits .f32 = 32 ∨ (Rect.block (s := S10000x256) S200x256.size (cc1_transform_7 i) (hinb1_7 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S200x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v4) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v5) S200x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S10000x512 : Shape := ⟨2, ![10000, 512]⟩
abbrev S1x512 : Shape := ⟨2, ![1, 512]⟩
abbrev S_ : Shape := ⟨0, ![]⟩
abbrev S1x256 : Shape := ⟨2, ![1, 256]⟩
abbrev S320000x1 : Shape := ⟨2, ![320000, 1]⟩
abbrev S320000x256 : Shape := ⟨2, ![320000, 256]⟩

abbrev nBuf : Space → Nat
  | .hbm => 57
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S10000x512, .f32⟩
  | .hbm, ⟨13, _⟩ => ⟨S1x512, .f32⟩
  | .hbm, ⟨14, _⟩ => ⟨S10000x512, .f32⟩
  | .hbm, ⟨15, _⟩ => ⟨S10000x512, .f32⟩
  | .hbm, ⟨16, _⟩ => ⟨S_, .f32⟩
  | .hbm, ⟨17, _⟩ => ⟨S10000x512, .f32⟩
  | .hbm, ⟨18, _⟩ => ⟨S10000x512, .f32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S10000x256, .f32⟩
  | .hbm, ⟨24, _⟩ => ⟨S_, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x256, .f32⟩
  | .hbm, ⟨52, _⟩ => ⟨S_, .f32⟩
  | .hbm, ⟨53, _⟩ => ⟨S10000x256, .f32⟩
  | .hbm, ⟨54, _⟩ => ⟨S320000x1, .i32⟩
  | .hbm, ⟨55, _⟩ => ⟨S10000x256, .f32⟩
  | .hbm, ⟨56, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S320000 : S_.BroadcastsInDim S320000 (![] : Fin 0 → Fin S320000.rank)
  bcast_S320000_S320000x1_0 : S320000.BroadcastsInDim S320000x1 (![0] : Fin 1 → Fin S320000x1.rank)
  dot_S10000x256_S256x512_S10000x512_1_0_0_1_n_n_wf : DotDims.WF S10000x256 S256x512 S10000x512 [1] [0] [0] [1] [] []
  dot_S10000x512_S512x256_S10000x256_1_0_0_1_n_n_wf : DotDims.WF S10000x512 S512x256 S10000x256 [1] [0] [0] [1] [] []
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.ResidualBodyBits.lean ====
/-
  The residual kernel (the first pallas_call) at a grid point, and the proof data of its pipeline.

  The body loads the five input blocks whole — a block of 1000 rows of the features, both weight matrices and both
  bias rows —, computes one value from them and stores it over the whole output block. So after the body the output
  staging buffer holds that value of the input blocks, each input buffer is as it was, and nothing else is touched.
  The arrays are taken as the region finds them (a parameter V), so that the same text serves wherever the region is
  entered from.
-/
import proofs.«149621_j6356551598646_2_alg».proof.Proof.Gen.Kernel.Launch
import proofs.«149621_j6356551598646_2_alg».proof.Proof.Gen.Kernel.Skeleton
import proofs.«149621_j6356551598646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000 × 256 block, the whole weight matrices and bias rows: the rectangles the body reads and writes. -/
abbrev rX : Rect S1000x256 := Rect.unit (s := S1000x256) ![0, 0] S1000x256.size inb_S1000x256_S1000x256_0_0
abbrev rW1 : Rect S256x512 := Rect.unit (s := S256x512) ![0, 0] S256x512.size inb_S256x512_S256x512_0_0
abbrev rB1 : Rect S1x512 := Rect.unit (s := S1x512) ![0, 0] S1x512.size inb_S1x512_S1x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0

/-- What the body leaves in the output staging buffer, from the input blocks: its one store, of the body's value of the
    loaded blocks, over the whole buffer. -/
def residOut (x0 : Vec F S1000x256 .f32) (x1 : Vec F S256x512 .f32) (x2 : Vec F S1x512 .f32) (x3 : Vec F S512x256 .f32) (x4 : Vec F S1x256 .f32) : Vec F S1000x256 .bf16 :=
  View.canon [⟨rX, k0_pay1 (View.ld x0 rX) (View.ld x1 rW1) (View.ld x2 rB1) (View.ld x3 rW2) (View.ld x4 rB2)⟩]

/-- The one store covers the buffer. -/
theorem residCover (p0 : Vec F S1000x256 .bf16) (y : S1000x256.Idx) :
    ∃ pc ∈ ([⟨rX, p0⟩] : List (View.Piece (Elt F) S1000x256 .bf16)), y ∈ pc.1.set :=
  View.cover_of_tiled [⟨rX, p0⟩] S1000x256.size (by rfl) y

set_option maxHeartbeats 1000000 in
/-- The body on whole staging buffers, the inputs' at contents x0 … x4 and the output's at anything, runs to the end
    holding the inputs' as they were and the output's at residOut of them. -/
theorem residKernel (c : Dev nD) (E : Set ℕ) (i : grid0.Coords)
    (arg1 : Memref sig .tc .vmem S1000x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S1000x256 .bf16) (harg6 : arg6.IsWhole)
    (x0 : Vec F S1000x256 .f32) (x1 : Vec F S256x512 .f32) (x2 : Vec F S1x512 .f32) (x3 : Vec F S512x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (residOut x0 x1 x2 x3 x4)) -∗ K ⟨⟩))
      ⊢ wp frame (wpE (defs₀ (F := F)) Variants.none c none) E (cc0__residual_kernel i arg1 harg1 arg2 harg2 arg3 harg3 arg4 harg4 arg5 harg5 arg6 harg6) K := by
  simp only [cc0__residual_kernel_eq_skeleton]; unfold cc0__residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (residCover _)

/-! ## The pipeline's proof data -/

/-- The proof data of the residual pipeline on core c: the arrays as the region finds them; after the body at point t
    each input buffer at its block and the output buffer at residOut of the input blocks; the invariant the scoped rest
    and the generator register, untouched; nothing owed; full shares. -/
def residDat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => residOut (iblk0 V c 0 t) (iblk0 V c 1 t) (iblk0 V c 2 t) (iblk0 V c 3 t) (iblk0 V c 4 t)
  Φ _ := Pipeline.ΦA spec0 c
  q _ := fullShare
  owed _ := 0

theorem residA (c : Dev nD) (w : Fin cfg0.W) : (residDat V c).A w = V c (Pipeline.arrRef spec0 w) := by
  dsimp only [residDat]

theorem residAfter0 (c : Dev nD) (t : Fin cfg0.N) : (residDat V c).after 0 t = iblk0 V c 0 t := by dsimp only [residDat]
theorem residAfter1 (c : Dev nD) (t : Fin cfg0.N) : (residDat V c).after 1 t = iblk0 V c 1 t := by dsimp only [residDat]
theorem residAfter2 (c : Dev nD) (t : Fin cfg0.N) : (residDat V c).after 2 t = iblk0 V c 2 t := by dsimp only [residDat]
theorem residAfter3 (c : Dev nD) (t : Fin cfg0.N) : (residDat V c).after 3 t = iblk0 V c 3 t := by dsimp only [residDat]
theorem residAfter4 (c : Dev nD) (t : Fin cfg0.N) : (residDat V c).after 4 t = iblk0 V c 4 t := by dsimp only [residDat]
theorem residAfter5 (c : Dev nD) (t : Fin cfg0.N) :
    (residDat V c).after 5 t = residOut (iblk0 V c 0 t) (iblk0 V c 1 t) (iblk0 V c 2 t) (iblk0 V c 3 t) (iblk0 V c 4 t) := by dsimp only [residDat]

/-- Each input's current staging buffer holds its block at every point: fetched there, or fetched at the first point and
    left in place since (the block index has not moved). -/
theorem residBefore0 (c : Dev nD) (t : Fin cfg0.N) (d) : (residDat V c).before 0 t d = iblk0 V c 0 t :=
  ((residDat V c).before_in_eq_fetched 0 rfl (fun _ => rfl) (fun _ _ _ => rfl) (fun t => by rw [residAfter0]; unfold Dat.blockOf iblk0; rw [residA]; try rfl) t d).trans
    (by unfold Dat.fetched Dat.blockOf iblk0; rw [residA]; try rfl)
theorem residBefore1 (c : Dev nD) (t : Fin cfg0.N) (d) : (residDat V c).before 1 t d = iblk0 V c 1 t :=
  ((residDat V c).before_in_eq_fetched 1 rfl (fun _ => rfl) (fun _ _ _ => rfl) (fun t => by rw [residAfter1]; unfold Dat.blockOf iblk0; rw [residA]; try rfl) t d).trans
    (by unfold Dat.fetched Dat.blockOf iblk0; rw [residA]; try rfl)
theorem residBefore2 (c : Dev nD) (t : Fin cfg0.N) (d) : (residDat V c).before 2 t d = iblk0 V c 2 t :=
  ((residDat V c).before_in_eq_fetched 2 rfl (fun _ => rfl) (fun _ _ _ => rfl) (fun t => by rw [residAfter2]; unfold Dat.blockOf iblk0; rw [residA]; try rfl) t d).trans
    (by unfold Dat.fetched Dat.blockOf iblk0; rw [residA]; try rfl)
theorem residBefore3 (c : Dev nD) (t : Fin cfg0.N) (d) : (residDat V c).before 3 t d = iblk0 V c 3 t :=
  ((residDat V c).before_in_eq_fetched 3 rfl (fun _ => rfl) (fun _ _ _ => rfl) (fun t => by rw [residAfter3]; unfold Dat.blockOf iblk0; rw [residA]; try rfl) t d).trans
    (by unfold Dat.fetched Dat.blockOf iblk0; rw [residA]; try rfl)
theorem residBefore4 (c : Dev nD) (t : Fin cfg0.N) (d) : (residDat V c).before 4 t d = iblk0 V c 4 t :=
  ((residDat V c).before_in_eq_fetched 4 rfl (fun _ => rfl) (fun _ _ _ => rfl) (fun t => by rw [residAfter4]; unfold Dat.blockOf iblk0; rw [residA]; try rfl) t d).trans
    (by unfold Dat.fetched Dat.blockOf iblk0; rw [residA]; try rfl)

/-! ## The body obligation, at a generic point -/

/-- What the body is called with at point t, the windows one by one, -/
def residPre (c : Dev nD) (t : Fin cfg0.N) : sProp 𝕄 :=
  iprop((residDat V c).Φ t.castSucc ∗ (residDat V c).owesAt () t.castSucc
    ∗ (∃ d, owns (c : Thread nD τ) (st0_0 t) fullShare ((residDat V c).before 0 t d))
    ∗ (∃ d, owns (c : Thread nD τ) (st0_1 t) fullShare ((residDat V c).before 1 t d))
    ∗ (∃ d, owns (c : Thread nD τ) (st0_2 t) fullShare ((residDat V c).before 2 t d))
    ∗ (∃ d, owns (c : Thread nD τ) (st0_3 t) fullShare ((residDat V c).before 3 t d))
    ∗ (∃ d, owns (c : Thread nD τ) (st0_4 t) fullShare ((residDat V c).before 4 t d))
    ∗ (∃ d, owns (c : Thread nD τ) (st0_5 t) fullShare ((residDat V c).before 5 t d)))

/-- and what it returns. -/
def residPost (c : Dev nD) (t : Fin cfg0.N) : sProp 𝕄 :=
  iprop((residDat V c).Φ t.succ ∗ (residDat V c).owesAt () t.succ
    ∗ owns (c : Thread nD τ) (st0_0 t) fullShare ((residDat V c).after 0 t)
    ∗ owns (c : Thread nD τ) (st0_1 t) fullShare ((residDat V c).after 1 t)
    ∗ owns (c : Thread nD τ) (st0_2 t) fullShare ((residDat V c).after 2 t)
    ∗ owns (c : Thread nD τ) (st0_3 t) fullShare ((residDat V c).after 3 t)
    ∗ owns (c : Thread nD τ) (st0_4 t) fullShare ((residDat V c).after 4 t)
    ∗ owns (c : Thread nD τ) (st0_5 t) fullShare ((residDat V c).after 5 t))

/-- The body at any point: the inputs' buffers hold their blocks, so residKernel applies; the invariant and what the core
    owes pass through unread. -/
theorem residBody (c : Dev nD) (t : Fin cfg0.N) :
    residPre V c t ⊢ wp frame (wpE (defs₀ (F := F)) Variants.none c none) Set.univ (bodyAt0 t) (fun _ => residPost V c t) := by
  unfold residPre residPost bodyAt0
  simp only [residBefore0, residBefore1, residBefore2, residBefore3, residBefore4]
  rw [show (residDat V c).Φ t.succ = (residDat V c).Φ t.castSucc from rfl,
    show (residDat V c).owesAt () t.succ = (residDat V c).owesAt () t.castSucc from rfl,
    residAfter0, residAfter1, residAfter2, residAfter3, residAfter4, residAfter5]
  iintro ⟨HΦ, Ho, ⟨%d0, H0⟩, ⟨%d1, H1⟩, ⟨%d2, H2⟩, ⟨%d3, H3⟩, ⟨%d4, H4⟩, ⟨%d5, H5⟩⟩
  iapply (residKernel c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the residual pipeline, at every point. -/
theorem residObligation (c : Dev nD) : BodyObligation (residDat (F := F) V c) (defs₀ (F := F)) Variants.none () Set.univ := fun t => by
  rw [bigSep_W0, bigSep_W0]
  exact residBody V c t

end Cert.Kernel.Hand

end
-- ==== Proof.LatticeBodyBits.lean ====
/-
  The lattice kernel (the second pallas_call) at a grid point, and the proof data of its pipeline.

  The body loads seven input blocks whole — 200 rows of the adjacency matrix, the whole feature array, the same 200
  rows of the feature array, two weight matrices and two bias rows —, computes one value from them and stores it over
  the whole output block. The feature array reaches the kernel through two windows: as a whole and row block by row
  block; the core holds it at half the share through each. After the body the output staging buffer holds the value
  of the input blocks, each input buffer is as it was, and nothing else is touched.
-/
import proofs.«149621_j6356551598646_2_alg».proof.Proof.Gen.Kernel.Launch
import proofs.«149621_j6356551598646_2_alg».proof.Proof.Gen.Kernel.Skeleton
import proofs.«149621_j6356551598646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 200 × 256 output block: the rectangle the body writes. -/
abbrev rOut : Rect S200x256 := Rect.unit (s := S200x256) ![0, 0] S200x256.size inb_S200x256_S200x256_0_0

/-- What the body leaves in the output staging buffer, from the input blocks: its one store, of the body's value of the
    loaded blocks, over the whole buffer. -/
def latOut (x0 : Vec F S200x10000 .f32) (x1 : Vec F S10000x256 .bf16) (x2 : Vec F S200x256 .bf16) (x3 : Vec F S256x256 .f32) (x4 : Vec F S1x256 .f32) (x5 : Vec F S256x256 .f32) (x6 : Vec F S1x256 .f32) : Vec F S200x256 .f32 :=
  View.canon [⟨rOut, k1_pay1 (View.ld x0 (Rect.unit (s := S200x10000) ![0, 0] S200x10000.size inb_S200x10000_S200x10000_0_0)) (View.ld x1 (Rect.unit (s := S10000x256) ![0, 0] S10000x256.size inb_S10000x256_S10000x256_0_0)) (View.ld x5 (Rect.unit (s := S256x256) ![0, 0] S256x256.size inb_S256x256_S256x256_0_0)) (View.ld x6 (Rect.unit (s := S1x256) ![0, 0] S1x256.size inb_S1x256_S1x256_0_0)) (View.ld x2 (Rect.unit (s := S200x256) ![0, 0] S200x256.size inb_S200x256_S200x256_0_0)) (View.ld x3 (Rect.unit (s := S256x256) ![0, 0] S256x256.size inb_S256x256_S256x256_0_0)) (View.ld x4 (Rect.unit (s := S1x256) ![0, 0] S1x256.size inb_S1x256_S1x256_0_0))⟩]

/-- The one store covers the buffer. -/
theorem latCover (p0 : Vec F S200x256 .f32) (y : S200x256.Idx) :
    ∃ pc ∈ ([⟨rOut, p0⟩] : List (View.Piece (Elt F) S200x256 .f32)), y ∈ pc.1.set :=
  View.cover_of_tiled [⟨rOut, p0⟩] S200x256.size (by rfl) y

set_option maxHeartbeats 1000000 in
/-- The body on whole staging buffers, the inputs' at contents x0 … x6 and the output's at anything, runs to the end
    holding the inputs' as they were and the output's at latOut of them. -/
theorem latKernel (c : Dev nD) (E : Set ℕ) (i : grid1.Coords)
    (arg1 : Memref sig .tc .vmem S200x10000 .f32) (harg1 : arg1.IsWhole) (arg2 : Memref sig .tc .vmem S10000x256 .bf16) (harg2 : arg2.IsWhole) (arg3 : Memref sig .tc .vmem S200x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S200x256 .f32) (harg8 : arg8.IsWhole)
    (x0 : Vec F S200x10000 .f32) (x1 : Vec F S10000x256 .bf16) (x2 : Vec F S200x256 .bf16) (x3 : Vec F S256x256 .f32) (x4 : Vec F S1x256 .f32) (x5 : Vec F S256x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (latOut x0 x1 x2 x3 x4 x5 x6)) -∗ K ⟨⟩))
      ⊢ wp frame (wpE (defs₀ (F := F)) Variants.none c none) E (cc1__lattice_kernel i arg1 harg1 arg2 harg2 arg3 harg3 arg4 harg4 arg5 harg5 arg6 harg6 arg7 harg7 arg8 harg8) K := by
  simp only [cc1__lattice_kernel_eq_skeleton]; unfold cc1__lattice_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (latCover _)

/-! ## The pipeline's proof data -/

/-- The proof data of the lattice pipeline on core c: the arrays as the region finds them; after the body at point t
    each input buffer at its block and the output buffer at latOut of the input blocks; the invariant the scoped rest
    and the generator register, untouched; nothing owed; the feature array, which two windows name, held at one half
    of the share through each, every other array at the full share. -/
def latDat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => latOut (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => fullShare.left
    | ⟨2, _⟩ => fullShare.right
    | _ => fullShare
  owed _ := 0

theorem latA (c : Dev nD) (w : Fin cfg1.W) : (latDat V c).A w = V c (Pipeline.arrRef spec1 w) := by
  dsimp only [latDat]

theorem latAfter0 (c : Dev nD) (t : Fin cfg1.N) : (latDat V c).after 0 t = iblk1 V c 0 t := by dsimp only [latDat]
theorem latAfter1 (c : Dev nD) (t : Fin cfg1.N) : (latDat V c).after 1 t = iblk1 V c 1 t := by dsimp only [latDat]
theorem latAfter2 (c : Dev nD) (t : Fin cfg1.N) : (latDat V c).after 2 t = iblk1 V c 2 t := by dsimp only [latDat]
theorem latAfter3 (c : Dev nD) (t : Fin cfg1.N) : (latDat V c).after 3 t = iblk1 V c 3 t := by dsimp only [latDat]
theorem latAfter4 (c : Dev nD) (t : Fin cfg1.N) : (latDat V c).after 4 t = iblk1 V c 4 t := by dsimp only [latDat]
theorem latAfter5 (c : Dev nD) (t : Fin cfg1.N) : (latDat V c).after 5 t = iblk1 V c 5 t := by dsimp only [latDat]
theorem latAfter6 (c : Dev nD) (t : Fin cfg1.N) : (latDat V c).after 6 t = iblk1 V c 6 t := by dsimp only [latDat]
theorem latAfter7 (c : Dev nD) (t : Fin cfg1.N) :
    (latDat V c).after 7 t = latOut (iblk1 V c 0 t) (iblk1 V c 1 t) (iblk1 V c 2 t) (iblk1 V c 3 t) (iblk1 V c 4 t) (iblk1 V c 5 t) (iblk1 V c 6 t) := by dsimp only [latDat]

/-- Each input's current staging buffer holds its block at every point: fetched there, or fetched at the first point and
    left in place since (the block index has not moved). -/
theorem latBefore0 (c : Dev nD) (t : Fin cfg1.N) (d) : (latDat V c).before 0 t d = iblk1 V c 0 t :=
  ((latDat V c).before_in_eq_fetched 0 rfl (fun _ => rfl) (fun _ _ _ => rfl) (fun t => by rw [latAfter0]; unfold Dat.blockOf iblk1; rw [latA]; try rfl) t d).trans
    (by unfold Dat.fetched Dat.blockOf iblk1; rw [latA]; try rfl)
theorem latBefore1 (c : Dev nD) (t : Fin cfg1.N) (d) : (latDat V c).before 1 t d = iblk1 V c 1 t :=
  ((latDat V c).before_in_eq_fetched 1 rfl (fun _ => rfl) (fun _ _ _ => rfl) (fun t => by rw [latAfter1]; unfold Dat.blockOf iblk1; rw [latA]; try rfl) t d).trans
    (by unfold Dat.fetched Dat.blockOf iblk1; rw [latA]; try rfl)
theorem latBefore2 (c : Dev nD) (t : Fin cfg1.N) (d) : (latDat V c).before 2 t d = iblk1 V c 2 t :=
  ((latDat V c).before_in_eq_fetched 2 rfl (fun _ => rfl) (fun _ _ _ => rfl) (fun t => by rw [latAfter2]; unfold Dat.blockOf iblk1; rw [latA]; try rfl) t d).trans
    (by unfold Dat.fetched Dat.blockOf iblk1; rw [latA]; try rfl)
theorem latBefore3 (c : Dev nD) (t : Fin cfg1.N) (d) : (latDat V c).before 3 t d = iblk1 V c 3 t :=
  ((latDat V c).before_in_eq_fetched 3 rfl (fun _ => rfl) (fun _ _ _ => rfl) (fun t => by rw [latAfter3]; unfold Dat.blockOf iblk1; rw [latA]; try rfl) t d).trans
    (by unfold Dat.fetched Dat.blockOf iblk1; rw [latA]; try rfl)
theorem latBefore4 (c : Dev nD) (t : Fin cfg1.N) (d) : (latDat V c).before 4 t d = iblk1 V c 4 t :=
  ((latDat V c).before_in_eq_fetched 4 rfl (fun _ => rfl) (fun _ _ _ => rfl) (fun t => by rw [latAfter4]; unfold Dat.blockOf iblk1; rw [latA]; try rfl) t d).trans
    (by unfold Dat.fetched Dat.blockOf iblk1; rw [latA]; try rfl)
theorem latBefore5 (c : Dev nD) (t : Fin cfg1.N) (d) : (latDat V c).before 5 t d = iblk1 V c 5 t :=
  ((latDat V c).before_in_eq_fetched 5 rfl (fun _ => rfl) (fun _ _ _ => rfl) (fun t => by rw [latAfter5]; unfold Dat.blockOf iblk1; rw [latA]; try rfl) t d).trans
    (by unfold Dat.fetched Dat.blockOf iblk1; rw [latA]; try rfl)
theorem latBefore6 (c : Dev nD) (t : Fin cfg1.N) (d) : (latDat V c).before 6 t d = iblk1 V c 6 t :=
  ((latDat V c).before_in_eq_fetched 6 rfl (fun _ => rfl) (fun _ _ _ => rfl) (fun t => by rw [latAfter6]; unfold Dat.blockOf iblk1; rw [latA]; try rfl) t d).trans
    (by unfold Dat.fetched Dat.blockOf iblk1; rw [latA]; try rfl)

/-! ## The body obligation, at a generic point -/

/-- What the body is called with at point t, the windows one by one, -/
def latPre (c : Dev nD) (t : Fin cfg1.N) : sProp 𝕄 :=
  iprop((latDat V c).Φ t.castSucc ∗ (latDat V c).owesAt () t.castSucc
    ∗ (∃ d, owns (c : Thread nD τ) (st1_0 t) fullShare ((latDat V c).before 0 t d))
    ∗ (∃ d, owns (c : Thread nD τ) (st1_1 t) fullShare ((latDat V c).before 1 t d))
    ∗ (∃ d, owns (c : Thread nD τ) (st1_2 t) fullShare ((latDat V c).before 2 t d))
    ∗ (∃ d, owns (c : Thread nD τ) (st1_3 t) fullShare ((latDat V c).before 3 t d))
    ∗ (∃ d, owns (c : Thread nD τ) (st1_4 t) fullShare ((latDat V c).before 4 t d))
    ∗ (∃ d, owns (c : Thread nD τ) (st1_5 t) fullShare ((latDat V c).before 5 t d))
    ∗ (∃ d, owns (c : Thread nD τ) (st1_6 t) fullShare ((latDat V c).before 6 t d))
    ∗ (∃ d, owns (c : Thread nD τ) (st1_7 t) fullShare ((latDat V c).before 7 t d)))

/-- and what it returns. -/
def latPost (c : Dev nD) (t : Fin cfg1.N) : sProp 𝕄 :=
  iprop((latDat V c).Φ t.succ ∗ (latDat V c).owesAt () t.succ
    ∗ owns (c : Thread nD τ) (st1_0 t) fullShare ((latDat V c).after 0 t)
    ∗ owns (c : Thread nD τ) (st1_1 t) fullShare ((latDat V c).after 1 t)
    ∗ owns (c : Thread nD τ) (st1_2 t) fullShare ((latDat V c).after 2 t)
    ∗ owns (c : Thread nD τ) (st1_3 t) fullShare ((latDat V c).after 3 t)
    ∗ owns (c : Thread nD τ) (st1_4 t) fullShare ((latDat V c).after 4 t)
    ∗ owns (c : Thread nD τ) (st1_5 t) fullShare ((latDat V c).after 5 t)
    ∗ owns (c : Thread nD τ) (st1_6 t) fullShare ((latDat V c).after 6 t)
    ∗ owns (c : Thread nD τ) (st1_7 t) fullShare ((latDat V c).after 7 t))

/-- The body at any point: the inputs' buffers hold their blocks, so latKernel applies; the invariant and what the core
    owes pass through unread. -/
theorem latBody (c : Dev nD) (t : Fin cfg1.N) :
    latPre V c t ⊢ wp frame (wpE (defs₀ (F := F)) Variants.none c none) Set.univ (bodyAt1 t) (fun _ => latPost V c t) := by
  unfold latPre latPost bodyAt1
  simp only [latBefore0, latBefore1, latBefore2, latBefore3, latBefore4, latBefore5, latBefore6]
  rw [show (latDat V c).Φ t.succ = (latDat V c).Φ t.castSucc from rfl,
    show (latDat V c).owesAt () t.succ = (latDat V c).owesAt () t.castSucc from rfl,
    latAfter0, latAfter1, latAfter2, latAfter3, latAfter4, latAfter5, latAfter6, latAfter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (latKernel c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the lattice pipeline, at every point. -/
theorem latObligation (c : Dev nD) : BodyObligation (latDat (F := F) V c) (defs₀ (F := F)) Variants.none () Set.univ := fun t => by
  rw [bigSep_W1, bigSep_W1]
  exact latBody V c t

end Cert.Kernel.Hand

end
-- ==== Proof.LibSharedWindows.lean ====
/-
  Two input windows on one array.

  A pipeline's entry takes the buffers behind its windows' arrays, each held whole at the full share, and must produce
  one points-to per WINDOW at that window's share. When the map from windows to buffers is injective the two
  collections correspond term by term. Here it is injective except that one window w₂ names the buffer another window w₁
  already names: the buffer's full-share points-to is then cut into two shares, one per window, and at the exit
  the two are joined again. Stated over an abstract iterated separating conjunction, so that it applies to any
  pipeline configuration.
-/
import Idealize.ShloMosaic.Lib.Pipeline.Launch

noncomputable section

namespace Idealize.ShloMosaic.SharedWindows

open Idealize.SL Idealize.SL.BI
open scoped Idealize.SL.BI
open Idealize.SL.BI.BIBase Idealize.SL.BI.Laws Idealize.SL.ProofMode

variable {M : Type} [Idealize.SL.RA.URA M]
variable {I : Type} [Fintype I] [DecidableEq I] {J : Type} [DecidableEq J]

/-- The iterated conjunction over an image, when the map is injective on the index set. -/
theorem bigSep_image_of_injOn (s : Finset I) (r : I → J) (Ψ : J → sProp M)
    (hinj : ∀ x ∈ s, ∀ y ∈ s, r x = r y → x = y) :
    bigSep (s.image r) Ψ = bigSep s (fun i => Ψ (r i)) :=
  Finset.fold_image hinj

/-- The windows' image is unchanged by dropping a window whose buffer another window names. -/
theorem image_erase_dup (r : I → J) {w₁ w₂ : I} (hne : w₁ ≠ w₂) (hdup : r w₁ = r w₂) :
    Finset.univ.image r = (Finset.univ.erase w₂).image r := by
  ext b
  simp only [Finset.mem_image, Finset.mem_univ, true_and, Finset.mem_erase]
  constructor
  · rintro ⟨w, rfl⟩
    by_cases h : w = w₂
    · exact ⟨w₁, ⟨hne, trivial⟩, by rw [h, hdup]⟩
    · exact ⟨w, ⟨h, trivial⟩, rfl⟩
  · rintro ⟨w, -, rfl⟩; exact ⟨w, rfl⟩

/-- ENTRY and EXIT at once: the buffers behind the windows (Ψ over the image of r) are the per-window terms (Φ over
    all windows), when r is injective off the duplicate w₂, every other window's term is its buffer's, and the shared
    buffer's term is cut into the two windows' terms. -/
theorem buffers_iff_windows (r : I → J) (Ψ : J → sProp M) (Φ : I → sProp M) {w₁ w₂ : I} (hne : w₁ ≠ w₂) (hdup : r w₁ = r w₂)
    (hinj : ∀ x, x ≠ w₂ → ∀ y, y ≠ w₂ → r x = r y → x = y)
    (hΦ : ∀ w, w ≠ w₁ → w ≠ w₂ → Φ w = Ψ (r w))
    (hcut : Ψ (r w₁) ⊣⊢ iprop(Φ w₁ ∗ Φ w₂)) :
    bigSep (Finset.univ.image r) Ψ ⊣⊢ bigSep Finset.univ Φ := by
  have h1 : w₁ ∈ Finset.univ.erase w₂ := Finset.mem_erase.mpr ⟨hne, Finset.mem_univ _⟩
  rw [image_erase_dup r hne hdup,
    bigSep_image_of_injOn _ r Ψ (fun x hx y hy => hinj x (Finset.mem_erase.mp hx).1 y (Finset.mem_erase.mp hy).1),
    bigSep_erase h1, bigSep_erase (Finset.mem_univ w₂) (Φ := Φ), bigSep_erase h1 (Φ := Φ),
    bigSep_congr (Φ := fun i => Ψ (r i)) (Ψ := Φ) (s := (Finset.univ.erase w₂).erase w₁) (fun w hw => by
      have h := Finset.mem_erase.mp hw
      exact (hΦ w h.1 (Finset.mem_erase.mp h.2).1).symm)]
  exact (Laws.sep_congr_left hcut).trans (Laws.sep_assoc.trans Laws.sep_left_comm)

end Idealize.ShloMosaic.SharedWindows

end
-- ==== Proof.SegmentsBits.lean ====
/-
  The two kernel regions of @main as segments, over the thread state "every unscoped buffer at the boundary's
  contents, the generator register at some state, nothing owed".

  Between items the core's unscoped buffers hold: the launch contents; then the two bias rows reshaped; then the
  residual kernel's result array at what its ten write-backs leave, every other buffer as before; then two more bias
  rows reshaped; then the lattice kernel's result array at what its fifty write-backs leave; then the host tail.
  A region splits its windows' arrays out of the unscoped buffers at its entry and puts them back at its exit. The
  lattice region's feature array is named by two windows: its one buffer, held whole at the full share, is cut into two
  half shares at the entry, one per window, and joined again at the exit.
-/
import proofs.«149621_j6356551598646_2_alg».proof.Proof.ResidualBodyBits
import proofs.«149621_j6356551598646_2_alg».proof.Proof.LatticeBodyBits
import proofs.«149621_j6356551598646_2_alg».proof.Proof.Gen.Kernel.Regions
import proofs.«149621_j6356551598646_2_alg».proof.Proof.LibSharedWindows

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the regions leave -/

/-- The buffers as the residual region finds them, read at the TensorCore's references. -/
abbrev VR1 : (c : Dev nD) → (b : Ref sig .tc) → Buf (Elt F) ((c : Thread nD τ).loc b) := fun c b => V1 m c b

/-- What the residual region leaves in its result array: the ten write-backs folded. -/
def resArr (c : Dev nD) : Buf (Elt F) ((c : Thread nD τ).loc main_call0_v2) := (residDat (VR1 m) c).arrAt 5 cfg0.N

/-- The buffers as the lattice region finds them, given the residual region's result. -/
abbrev W3 (c : Dev nD) : Valuation τ sig (Elt F) := StableHlo.after hostOps1 (Function.update (V1 m c) main_call0_v2 (resArr m c))
abbrev VR3 : (c : Dev nD) → (b : Ref sig .tc) → Buf (Elt F) ((c : Thread nD τ).loc b) := fun c b => W3 m c b

/-- What the lattice region leaves in its result array: the fifty write-backs folded. -/
def latArr (c : Dev nD) : Buf (Elt F) ((c : Thread nD τ).loc main_call0_v5) := (latDat (VR3 m) c).arrAt 7 cfg1.N

/-- The contents the regions leave, as the family the boundary valuations are written over. -/
def outs : Outs (F := F) := fun _ r c =>
  if h : r = main_call0_v2 then h ▸ resArr m c
  else if h' : r = main_call0_v5 then h' ▸ latArr m c
  else m ((c : Thread nD τ).loc r)

theorem outs_v2 (j : ℕ) (c : Dev nD) : outs m j main_call0_v2 c = resArr m c := by
  unfold outs; rw [dif_pos rfl]
theorem outs_v5 (j : ℕ) (c : Dev nD) : outs m j main_call0_v5 c = latArr m c := by
  unfold outs; rw [dif_neg (by decide), dif_pos rfl]

theorem V2_eq (c : Dev nD) : V2 m (outs m) c = Function.update (V1 m c) main_call0_v2 (resArr m c) := by
  show Function.update (V1 m c) main_call0_v2 (outs m 2 main_call0_v2 c) = _
  rw [outs_v2]
theorem V3_eq (c : Dev nD) : V3 m (outs m) c = W3 m c := by
  show StableHlo.after hostOps1 (V2 m (outs m) c) = _
  rw [V2_eq]
theorem V4_eq (c : Dev nD) : V4 m (outs m) c = Function.update (W3 m c) main_call0_v5 (latArr m c) := by
  show Function.update (V3 m (outs m) c) main_call0_v5 (outs m 4 main_call0_v5 c) = _
  rw [outs_v5, V3_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => residDat (VR1 m) c
  | ⟨1, _⟩ => fun c => latDat (VR3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

/-! ## The residual region -/

theorem resid_hF (c : Dev nD) (w : Fin cfg0.W) :
    (residDat (VR1 m) c).arrAt w cfg0.N = (fun b : Ref sig .tc => V2 m (outs m) c b) (Pipeline.arrRef spec0 w) := by
  rw [V2_eq]
  match w with
  | ⟨0, _⟩ => exact ((residDat (VR1 m) c).arrAt_in 0 rfl _).trans ((residA (VR1 m) c 0).trans (Function.update_of_ne (StableHlo.devRef_ne_of_ne (by decide)) _ _).symm)
  | ⟨1, _⟩ => exact ((residDat (VR1 m) c).arrAt_in 1 rfl _).trans ((residA (VR1 m) c 1).trans (Function.update_of_ne (StableHlo.devRef_ne_of_ne (by decide)) _ _).symm)
  | ⟨2, _⟩ => exact ((residDat (VR1 m) c).arrAt_in 2 rfl _).trans ((residA (VR1 m) c 2).trans (Function.update_of_ne (StableHlo.devRef_ne_of_ne (by decide)) _ _).symm)
  | ⟨3, _⟩ => exact ((residDat (VR1 m) c).arrAt_in 3 rfl _).trans ((residA (VR1 m) c 3).trans (Function.update_of_ne (StableHlo.devRef_ne_of_ne (by decide)) _ _).symm)
  | ⟨4, _⟩ => exact ((residDat (VR1 m) c).arrAt_in 4 rfl _).trans ((residA (VR1 m) c 4).trans (Function.update_of_ne (StableHlo.devRef_ne_of_ne (by decide)) _ _).symm)
  | ⟨5, _⟩ =>
    show _ = Function.update (V1 m c) (Proc.devRef .tc main_call0_v2) (resArr m c) (Proc.devRef .tc main_call0_v2)
    rw [Function.update_self]; rfl

theorem resid_hrest (c : Dev nD) : ∀ b : Ref sig .tc, b ∉ Finset.univ.image (Pipeline.arrRef spec0) →
    (fun b : Ref sig .tc => V2 m (outs m) c b) b = VR1 m c b := fun b hb => by
  show V2 m (outs m) c b = V1 m c b
  rw [V2_eq]
  exact Function.update_of_ne (StableHlo.devRef_ne_of_ne fun e => hb (Finset.mem_image.mpr ⟨5, Finset.mem_univ _, e.symm⟩)) _ _

set_option backward.isDefEq.respectTransparency.types false in
/-- The residual region: entered from every unscoped buffer at the contents after the first reshapes, left at those
    contents with the result array at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (residObligation (VR1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (fun b : Ref sig .tc => V2 m (outs m) c b) ((pdats m 0 c).arrAt · cfg0.N) (resid_hF m c) (resid_hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The lattice region -/

/-- The buffers behind the lattice region's windows, each held whole at the full share, are the windows' arrays at the
    proof data's shares: every window but the two on the feature array names a buffer of its own; the feature array's
    buffer is cut into the two half shares. Read in both directions: at the entry and at the exit. -/
theorem lat_arrays_iff (c : Dev nD) (Vb : (b : Ref sig .tc) → Buf (Elt F) ((c : Thread nD τ).loc b))
    (Fa : (w : Fin cfg1.W) → Buf (Elt F) ((cfg1.win w).arr.view.loc (c : Thread nD τ)))
    (hF : ∀ w, Fa w = Vb (Pipeline.arrRef spec1 w)) :
    (Pipeline.arrBufs (Ix := Unit) (Name := ℕ) (U := UR sig nD τ) (Lvl := ℕ) spec1 c Vb : sProp 𝕄) ⊣⊢ (latDat (VR3 m) c).arrays Fa := by
  unfold Pipeline.arrBufs Dat.arrays
  refine SharedWindows.buffers_iff_windows (Pipeline.arrRef spec1) _ _ (w₁ := (1 : Fin 8)) (w₂ := (2 : Fin 8)) (by decide) rfl (by decide) (fun w h1 h2 => ?_) ?_
  · match w with
    | ⟨0, _⟩ => rw [(arr_whole1 0).set_eq_univ, hF]; rfl
    | ⟨1, _⟩ => exact absurd rfl h1
    | ⟨2, _⟩ => exact absurd rfl h2
    | ⟨3, _⟩ => rw [(arr_whole1 3).set_eq_univ, hF]; rfl
    | ⟨4, _⟩ => rw [(arr_whole1 4).set_eq_univ, hF]; rfl
    | ⟨5, _⟩ => rw [(arr_whole1 5).set_eq_univ, hF]; rfl
    | ⟨6, _⟩ => rw [(arr_whole1 6).set_eq_univ, hF]; rfl
    | ⟨7, _⟩ => rw [(arr_whole1 7).set_eq_univ, hF]; rfl
  · have e1 : (cfg1.win (1 : Fin 8)).arr.view.set = Finset.univ := (arr_whole1 1).set_eq_univ
    rw [e1, hF (1 : Fin 8), hF (2 : Fin 8)]
    exact pointsTo_share (PosShare.mem_left_op_right fullShare)

theorem lat_hF (c : Dev nD) (w : Fin cfg1.W) :
    (latDat (VR3 m) c).arrAt w cfg1.N = (fun b : Ref sig .tc => V4 m (outs m) c b) (Pipeline.arrRef spec1 w) := by
  rw [V4_eq]
  match w with
  | ⟨0, _⟩ => exact ((latDat (VR3 m) c).arrAt_in 0 rfl _).trans ((latA (VR3 m) c 0).trans (Function.update_of_ne (StableHlo.devRef_ne_of_ne (by decide)) _ _).symm)
  | ⟨1, _⟩ => exact ((latDat (VR3 m) c).arrAt_in 1 rfl _).trans ((latA (VR3 m) c 1).trans (Function.update_of_ne (StableHlo.devRef_ne_of_ne (by decide)) _ _).symm)
  | ⟨2, _⟩ => exact ((latDat (VR3 m) c).arrAt_in 2 rfl _).trans ((latA (VR3 m) c 2).trans (Function.update_of_ne (StableHlo.devRef_ne_of_ne (by decide)) _ _).symm)
  | ⟨3, _⟩ => exact ((latDat (VR3 m) c).arrAt_in 3 rfl _).trans ((latA (VR3 m) c 3).trans (Function.update_of_ne (StableHlo.devRef_ne_of_ne (by decide)) _ _).symm)
  | ⟨4, _⟩ => exact ((latDat (VR3 m) c).arrAt_in 4 rfl _).trans ((latA (VR3 m) c 4).trans (Function.update_of_ne (StableHlo.devRef_ne_of_ne (by decide)) _ _).symm)
  | ⟨5, _⟩ => exact ((latDat (VR3 m) c).arrAt_in 5 rfl _).trans ((latA (VR3 m) c 5).trans (Function.update_of_ne (StableHlo.devRef_ne_of_ne (by decide)) _ _).symm)
  | ⟨6, _⟩ => exact ((latDat (VR3 m) c).arrAt_in 6 rfl _).trans ((latA (VR3 m) c 6).trans (Function.update_of_ne (StableHlo.devRef_ne_of_ne (by decide)) _ _).symm)
  | ⟨7, _⟩ =>
    show _ = Function.update (W3 m c) (Proc.devRef .tc main_call0_v5) (latArr m c) (Proc.devRef .tc main_call0_v5)
    rw [Function.update_self]; rfl

theorem lat_hrest (c : Dev nD) : ∀ b : Ref sig .tc, b ∉ Finset.univ.image (Pipeline.arrRef spec1) →
    (fun b : Ref sig .tc => V4 m (outs m) c b) b = VR3 m c b := fun b hb => by
  show V4 m (outs m) c b = W3 m c b
  rw [V4_eq]
  exact Function.update_of_ne (StableHlo.devRef_ne_of_ne fun e => hb (Finset.mem_image.mpr ⟨7, Finset.mem_univ _, e.symm⟩)) _ _

set_option backward.isDefEq.respectTransparency.types false in
/-- The lattice region: entered from every unscoped buffer at the contents after the second reshapes, left at those
    contents with the result array at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (latObligation (VR3 m) c).loose
  hwaits := Pipeline.hwaits_of_owed_zero _ _ _ _ L lv 1 fun _ _ => rfl
  pre c := iprop(StableHlo.held (c : Thread nD τ) (Pipeline.ucRefs τ sig) (V3 m (outs m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit : (unscopedBufs c (VR3 m c) : sProp 𝕄)
        ⊢ iprop((pdats m 1 c).arrays ((pdats m 1 c).arrAt · 0) ∗ Pipeline.unscopedRest spec1 c (VR3 m c)) := by
      rw [Pipeline.unscopedBufs_split₀ cfgs 1 winFacts₀1.arr_unscoped c (VR3 m c)]
      exact sep_mono (lat_arrays_iff m c (VR3 m c) _ (fun w => latA (VR3 m) c w)).1 .rfl
    rw [Pipeline.unscopedBufs_held] at hsplit
    rw [V3_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VR3 m c))
        ⊢ (unscopedBufs c (fun b : Ref sig .tc => V4 m (outs m) c b) : sProp 𝕄) := by
      rw [Pipeline.unscopedBufs_split₀ cfgs 1 winFacts₀1.arr_unscoped c (fun b : Ref sig .tc => V4 m (outs m) c b)]
      refine sep_mono (lat_arrays_iff m c _ _ (lat_hF m c)).2 (Entails.of_eq ?_)
      unfold Pipeline.unscopedRest
      exact bigSep_congr fun b hb => by rw [lat_hrest m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.RunBits.lean ====
/-
  The run of @main: the launch over its five segments — two reshapes, the residual region, two reshapes, the lattice
  region, the host tail.

  Every weakly fair execution terminates, nothing faulting, and in the final state every unscoped buffer holds the
  last boundary's contents: the launch contents folded through the host stretches and the two regions' results.
  The arguments are among those buffers and no item writes one, which is the frame; the result buffer is among them
  too, which is what a claim about the program's value starts from.
-/
import proofs.«149621_j6356551598646_2_alg».proof.Proof.SegmentsBits

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element yields the pipeline library's at every staging cell; no other ghost resource. -/
theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers is made on every core from what the launch deals it: the generator register, and the
    core owing nothing. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (Er (F := F) 0) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : Er (F := F) 2 c ⊢ (iprop(∃ W, owes (c : Thread nD τ) (0 : CellTallies nD τ sig Unit) W) : sProp 𝕄) := by
  iintro ⟨-, HO⟩; iexact HO

/-- THE FRAME, at any instance of the floats: every weakly fair execution of @main terminates, nothing faulting, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) launch_ghost Er (launch_rest ρ) rest_owes
    (reg0 m) (fun _ => .rfl) (fun _ => .rfl) (reg1 m) (fun _ => .rfl) (fun _ => .rfl)

end Cert.Kernel.Hand

end
-- ==== Proof.ResidualBody.lean ====
/-
  The residual kernel (the first pallas_call) at a grid point, and the proof data of its pipeline.

  The body loads the five input blocks whole — a block of 1000 rows of the features, both weight matrices and both
  bias rows —, computes one value from them and stores it over the whole output block. So after the body the output
  staging buffer holds that value of the input blocks, each input buffer is as it was, and nothing else is touched.
  The arrays are taken as the region finds them (a parameter V), so that the same text serves wherever the region is
  entered from.
-/
import proofs.«149621_j6356551598646_2_alg».proof.Proof.Gen.KernelIdeal.Launch
import proofs.«149621_j6356551598646_2_alg».proof.Proof.Gen.KernelIdeal.Skeleton
import proofs.«149621_j6356551598646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000 × 256 block, the whole weight matrices and bias rows: the rectangles the body reads and writes. -/
abbrev rX : Rect S1000x256 := Rect.unit (s := S1000x256) ![0, 0] S1000x256.size inb_S1000x256_S1000x256_0_0
abbrev rW1 : Rect S256x512 := Rect.unit (s := S256x512) ![0, 0] S256x512.size inb_S256x512_S256x512_0_0
abbrev rB1 : Rect S1x512 := Rect.unit (s := S1x512) ![0, 0] S1x512.size inb_S1x512_S1x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0

/-- What the body leaves in the output staging buffer, from the input blocks: its one store, of the body's value of the
    loaded blocks, over the whole buffer. -/
def residOut (x0 : Vec F S1000x256 .f32) (x1 : Vec F S256x512 .f32) (x2 : Vec F S1x512 .f32) (x3 : Vec F S512x256 .f32) (x4 : Vec F S1x256 .f32) : Vec F S1000x256 .bf16 :=
  View.canon [⟨rX, k0_pay1 (View.ld x0 rX) (View.ld x1 rW1) (View.ld x2 rB1) (View.ld x3 rW2) (View.ld x4 rB2)⟩]

/-- The one store covers the buffer. -/
theorem residCover (p0 : Vec F S1000x256 .bf16) (y : S1000x256.Idx) :
    ∃ pc ∈ ([⟨rX, p0⟩] : List (View.Piece (Elt F) S1000x256 .bf16)), y ∈ pc.1.set :=
  View.cover_of_tiled [⟨rX, p0⟩] S1000x256.size (by rfl) y

set_option maxHeartbeats 1000000 in
/-- The body on whole staging buffers, the inputs' at contents x0 … x4 and the output's at anything, runs to the end
    holding the inputs' as they were and the output's at residOut of them. -/
theorem residKernel (c : Dev nD) (E : Set ℕ) (i : grid0.Coords)
    (arg1 : Memref sig .tc .vmem S1000x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S1000x256 .bf16) (harg6 : arg6.IsWhole)
    (x0 : Vec F S1000x256 .f32) (x1 : Vec F S256x512 .f32) (x2 : Vec F S1x512 .f32) (x3 : Vec F S512x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (residOut x0 x1 x2 x3 x4)) -∗ K ⟨⟩))
      ⊢ wp frame (wpE (defs₀ (F := F)) Variants.none c none) E (cc0__residual_kernel i arg1 harg1 arg2 harg2 arg3 harg3 arg4 harg4 arg5 harg5 arg6 harg6) K := by
  simp only [cc0__residual_kernel_eq_skeleton]; unfold cc0__residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (residCover _)

/-! ## The pipeline's proof data -/

/-- The proof data of the residual pipeline on core c: the arrays as the region finds them; after the body at point t
    each input buffer at its block and the output buffer at residOut of the input blocks; the invariant the scoped rest
    and the generator register, untouched; nothing owed; full shares. -/
def residDat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => residOut (iblk0 V c 0 t) (iblk0 V c 1 t) (iblk0 V c 2 t) (iblk0 V c 3 t) (iblk0 V c 4 t)
  Φ _ := Pipeline.ΦA spec0 c
  q _ := fullShare
  owed _ := 0

theorem residA (c : Dev nD) (w : Fin cfg0.W) : (residDat V c).A w = V c (Pipeline.arrRef spec0 w) := by
  dsimp only [residDat]

theorem residAfter0 (c : Dev nD) (t : Fin cfg0.N) : (residDat V c).after 0 t = iblk0 V c 0 t := by dsimp only [residDat]
theorem residAfter1 (c : Dev nD) (t : Fin cfg0.N) : (residDat V c).after 1 t = iblk0 V c 1 t := by dsimp only [residDat]
theorem residAfter2 (c : Dev nD) (t : Fin cfg0.N) : (residDat V c).after 2 t = iblk0 V c 2 t := by dsimp only [residDat]
theorem residAfter3 (c : Dev nD) (t : Fin cfg0.N) : (residDat V c).after 3 t = iblk0 V c 3 t := by dsimp only [residDat]
theorem residAfter4 (c : Dev nD) (t : Fin cfg0.N) : (residDat V c).after 4 t = iblk0 V c 4 t := by dsimp only [residDat]
theorem residAfter5 (c : Dev nD) (t : Fin cfg0.N) :
    (residDat V c).after 5 t = residOut (iblk0 V c 0 t) (iblk0 V c 1 t) (iblk0 V c 2 t) (iblk0 V c 3 t) (iblk0 V c 4 t) := by dsimp only [residDat]

/-- Each input's current staging buffer holds its block at every point: fetched there, or fetched at the first point and
    left in place since (the block index has not moved). -/
theorem residBefore0 (c : Dev nD) (t : Fin cfg0.N) (d) : (residDat V c).before 0 t d = iblk0 V c 0 t :=
  ((residDat V c).before_in_eq_fetched 0 rfl (fun _ => rfl) (fun _ _ _ => rfl) (fun t => by rw [residAfter0]; unfold Dat.blockOf iblk0; rw [residA]; try rfl) t d).trans
    (by unfold Dat.fetched Dat.blockOf iblk0; rw [residA]; try rfl)
theorem residBefore1 (c : Dev nD) (t : Fin cfg0.N) (d) : (residDat V c).before 1 t d = iblk0 V c 1 t :=
  ((residDat V c).before_in_eq_fetched 1 rfl (fun _ => rfl) (fun _ _ _ => rfl) (fun t => by rw [residAfter1]; unfold Dat.blockOf iblk0; rw [residA]; try rfl) t d).trans
    (by unfold Dat.fetched Dat.blockOf iblk0; rw [residA]; try rfl)
theorem residBefore2 (c : Dev nD) (t : Fin cfg0.N) (d) : (residDat V c).before 2 t d = iblk0 V c 2 t :=
  ((residDat V c).before_in_eq_fetched 2 rfl (fun _ => rfl) (fun _ _ _ => rfl) (fun t => by rw [residAfter2]; unfold Dat.blockOf iblk0; rw [residA]; try rfl) t d).trans
    (by unfold Dat.fetched Dat.blockOf iblk0; rw [residA]; try rfl)
theorem residBefore3 (c : Dev nD) (t : Fin cfg0.N) (d) : (residDat V c).before 3 t d = iblk0 V c 3 t :=
  ((residDat V c).before_in_eq_fetched 3 rfl (fun _ => rfl) (fun _ _ _ => rfl) (fun t => by rw [residAfter3]; unfold Dat.blockOf iblk0; rw [residA]; try rfl) t d).trans
    (by unfold Dat.fetched Dat.blockOf iblk0; rw [residA]; try rfl)
theorem residBefore4 (c : Dev nD) (t : Fin cfg0.N) (d) : (residDat V c).before 4 t d = iblk0 V c 4 t :=
  ((residDat V c).before_in_eq_fetched 4 rfl (fun _ => rfl) (fun _ _ _ => rfl) (fun t => by rw [residAfter4]; unfold Dat.blockOf iblk0; rw [residA]; try rfl) t d).trans
    (by unfold Dat.fetched Dat.blockOf iblk0; rw [residA]; try rfl)

/-! ## The body obligation, at a generic point -/

/-- What the body is called with at point t, the windows one by one, -/
def residPre (c : Dev nD) (t : Fin cfg0.N) : sProp 𝕄 :=
  iprop((residDat V c).Φ t.castSucc ∗ (residDat V c).owesAt () t.castSucc
    ∗ (∃ d, owns (c : Thread nD τ) (st0_0 t) fullShare ((residDat V c).before 0 t d))
    ∗ (∃ d, owns (c : Thread nD τ) (st0_1 t) fullShare ((residDat V c).before 1 t d))
    ∗ (∃ d, owns (c : Thread nD τ) (st0_2 t) fullShare ((residDat V c).before 2 t d))
    ∗ (∃ d, owns (c : Thread nD τ) (st0_3 t) fullShare ((residDat V c).before 3 t d))
    ∗ (∃ d, owns (c : Thread nD τ) (st0_4 t) fullShare ((residDat V c).before 4 t d))
    ∗ (∃ d, owns (c : Thread nD τ) (st0_5 t) fullShare ((residDat V c).before 5 t d)))

/-- and what it returns. -/
def residPost (c : Dev nD) (t : Fin cfg0.N) : sProp 𝕄 :=
  iprop((residDat V c).Φ t.succ ∗ (residDat V c).owesAt () t.succ
    ∗ owns (c : Thread nD τ) (st0_0 t) fullShare ((residDat V c).after 0 t)
    ∗ owns (c : Thread nD τ) (st0_1 t) fullShare ((residDat V c).after 1 t)
    ∗ owns (c : Thread nD τ) (st0_2 t) fullShare ((residDat V c).after 2 t)
    ∗ owns (c : Thread nD τ) (st0_3 t) fullShare ((residDat V c).after 3 t)
    ∗ owns (c : Thread nD τ) (st0_4 t) fullShare ((residDat V c).after 4 t)
    ∗ owns (c : Thread nD τ) (st0_5 t) fullShare ((residDat V c).after 5 t))

/-- The body at any point: the inputs' buffers hold their blocks, so residKernel applies; the invariant and what the core
    owes pass through unread. -/
theorem residBody (c : Dev nD) (t : Fin cfg0.N) :
    residPre V c t ⊢ wp frame (wpE (defs₀ (F := F)) Variants.none c none) Set.univ (bodyAt0 t) (fun _ => residPost V c t) := by
  unfold residPre residPost bodyAt0
  simp only [residBefore0, residBefore1, residBefore2, residBefore3, residBefore4]
  rw [show (residDat V c).Φ t.succ = (residDat V c).Φ t.castSucc from rfl,
    show (residDat V c).owesAt () t.succ = (residDat V c).owesAt () t.castSucc from rfl,
    residAfter0, residAfter1, residAfter2, residAfter3, residAfter4, residAfter5]
  iintro ⟨HΦ, Ho, ⟨%d0, H0⟩, ⟨%d1, H1⟩, ⟨%d2, H2⟩, ⟨%d3, H3⟩, ⟨%d4, H4⟩, ⟨%d5, H5⟩⟩
  iapply (residKernel c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the residual pipeline, at every point. -/
theorem residObligation (c : Dev nD) : BodyObligation (residDat (F := F) V c) (defs₀ (F := F)) Variants.none () Set.univ := fun t => by
  rw [bigSep_W0, bigSep_W0]
  exact residBody V c t

end Cert.KernelIdeal.Hand

end
-- ==== Proof.LatticeBody.lean ====
/-
  The lattice kernel (the second pallas_call) at a grid point, and the proof data of its pipeline.

  The body loads seven input blocks whole — 200 rows of the adjacency matrix, the whole feature array, the same 200
  rows of the feature array, two weight matrices and two bias rows —, computes one value from them and stores it over
  the whole output block. The feature array reaches the kernel through two windows: as a whole and row block by row
  block; the core holds it at half the share through each. After the body the output staging buffer holds the value
  of the input blocks, each input buffer is as it was, and nothing else is touched.
-/
import proofs.«149621_j6356551598646_2_alg».proof.Proof.Gen.KernelIdeal.Launch
import proofs.«149621_j6356551598646_2_alg».proof.Proof.Gen.KernelIdeal.Skeleton
import proofs.«149621_j6356551598646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 200 × 256 output block: the rectangle the body writes. -/
abbrev rOut : Rect S200x256 := Rect.unit (s := S200x256) ![0, 0] S200x256.size inb_S200x256_S200x256_0_0

/-- What the body leaves in the output staging buffer, from the input blocks: its one store, of the body's value of the
    loaded blocks, over the whole buffer. -/
def latOut (x0 : Vec F S200x10000 .f32) (x1 : Vec F S10000x256 .bf16) (x2 : Vec F S200x256 .bf16) (x3 : Vec F S256x256 .f32) (x4 : Vec F S1x256 .f32) (x5 : Vec F S256x256 .f32) (x6 : Vec F S1x256 .f32) : Vec F S200x256 .f32 :=
  View.canon [⟨rOut, k1_pay1 (View.ld x0 (Rect.unit (s := S200x10000) ![0, 0] S200x10000.size inb_S200x10000_S200x10000_0_0)) (View.ld x1 (Rect.unit (s := S10000x256) ![0, 0] S10000x256.size inb_S10000x256_S10000x256_0_0)) (View.ld x5 (Rect.unit (s := S256x256) ![0, 0] S256x256.size inb_S256x256_S256x256_0_0)) (View.ld x6 (Rect.unit (s := S1x256) ![0, 0] S1x256.size inb_S1x256_S1x256_0_0)) (View.ld x2 (Rect.unit (s := S200x256) ![0, 0] S200x256.size inb_S200x256_S200x256_0_0)) (View.ld x3 (Rect.unit (s := S256x256) ![0, 0] S256x256.size inb_S256x256_S256x256_0_0)) (View.ld x4 (Rect.unit (s := S1x256) ![0, 0] S1x256.size inb_S1x256_S1x256_0_0))⟩]

/-- The one store covers the buffer. -/
theorem latCover (p0 : Vec F S200x256 .f32) (y : S200x256.Idx) :
    ∃ pc ∈ ([⟨rOut, p0⟩] : List (View.Piece (Elt F) S200x256 .f32)), y ∈ pc.1.set :=
  View.cover_of_tiled [⟨rOut, p0⟩] S200x256.size (by rfl) y

set_option maxHeartbeats 1000000 in
/-- The body on whole staging buffers, the inputs' at contents x0 … x6 and the output's at anything, runs to the end
    holding the inputs' as they were and the output's at latOut of them. -/
theorem latKernel (c : Dev nD) (E : Set ℕ) (i : grid1.Coords)
    (arg1 : Memref sig .tc .vmem S200x10000 .f32) (harg1 : arg1.IsWhole) (arg2 : Memref sig .tc .vmem S10000x256 .bf16) (harg2 : arg2.IsWhole) (arg3 : Memref sig .tc .vmem S200x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S200x256 .f32) (harg8 : arg8.IsWhole)
    (x0 : Vec F S200x10000 .f32) (x1 : Vec F S10000x256 .bf16) (x2 : Vec F S200x256 .bf16) (x3 : Vec F S256x256 .f32) (x4 : Vec F S1x256 .f32) (x5 : Vec F S256x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (latOut x0 x1 x2 x3 x4 x5 x6)) -∗ K ⟨⟩))
      ⊢ wp frame (wpE (defs₀ (F := F)) Variants.none c none) E (cc1__lattice_kernel i arg1 harg1 arg2 harg2 arg3 harg3 arg4 harg4 arg5 harg5 arg6 harg6 arg7 harg7 arg8 harg8) K := by
  simp only [cc1__lattice_kernel_eq_skeleton]; unfold cc1__lattice_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (latCover _)

/-! ## The pipeline's proof data -/

/-- The proof data of the lattice pipeline on core c: the arrays as the region finds them; after the body at point t
    each input buffer at its block and the output buffer at latOut of the input blocks; the invariant the scoped rest
    and the generator register, untouched; nothing owed; the feature array, which two windows name, held at one half
    of the share through each, every other array at the full share. -/
def latDat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => latOut (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => fullShare.left
    | ⟨2, _⟩ => fullShare.right
    | _ => fullShare
  owed _ := 0

theorem latA (c : Dev nD) (w : Fin cfg1.W) : (latDat V c).A w = V c (Pipeline.arrRef spec1 w) := by
  dsimp only [latDat]

theorem latAfter0 (c : Dev nD) (t : Fin cfg1.N) : (latDat V c).after 0 t = iblk1 V c 0 t := by dsimp only [latDat]
theorem latAfter1 (c : Dev nD) (t : Fin cfg1.N) : (latDat V c).after 1 t = iblk1 V c 1 t := by dsimp only [latDat]
theorem latAfter2 (c : Dev nD) (t : Fin cfg1.N) : (latDat V c).after 2 t = iblk1 V c 2 t := by dsimp only [latDat]
theorem latAfter3 (c : Dev nD) (t : Fin cfg1.N) : (latDat V c).after 3 t = iblk1 V c 3 t := by dsimp only [latDat]
theorem latAfter4 (c : Dev nD) (t : Fin cfg1.N) : (latDat V c).after 4 t = iblk1 V c 4 t := by dsimp only [latDat]
theorem latAfter5 (c : Dev nD) (t : Fin cfg1.N) : (latDat V c).after 5 t = iblk1 V c 5 t := by dsimp only [latDat]
theorem latAfter6 (c : Dev nD) (t : Fin cfg1.N) : (latDat V c).after 6 t = iblk1 V c 6 t := by dsimp only [latDat]
theorem latAfter7 (c : Dev nD) (t : Fin cfg1.N) :
    (latDat V c).after 7 t = latOut (iblk1 V c 0 t) (iblk1 V c 1 t) (iblk1 V c 2 t) (iblk1 V c 3 t) (iblk1 V c 4 t) (iblk1 V c 5 t) (iblk1 V c 6 t) := by dsimp only [latDat]

/-- Each input's current staging buffer holds its block at every point: fetched there, or fetched at the first point and
    left in place since (the block index has not moved). -/
theorem latBefore0 (c : Dev nD) (t : Fin cfg1.N) (d) : (latDat V c).before 0 t d = iblk1 V c 0 t :=
  ((latDat V c).before_in_eq_fetched 0 rfl (fun _ => rfl) (fun _ _ _ => rfl) (fun t => by rw [latAfter0]; unfold Dat.blockOf iblk1; rw [latA]; try rfl) t d).trans
    (by unfold Dat.fetched Dat.blockOf iblk1; rw [latA]; try rfl)
theorem latBefore1 (c : Dev nD) (t : Fin cfg1.N) (d) : (latDat V c).before 1 t d = iblk1 V c 1 t :=
  ((latDat V c).before_in_eq_fetched 1 rfl (fun _ => rfl) (fun _ _ _ => rfl) (fun t => by rw [latAfter1]; unfold Dat.blockOf iblk1; rw [latA]; try rfl) t d).trans
    (by unfold Dat.fetched Dat.blockOf iblk1; rw [latA]; try rfl)
theorem latBefore2 (c : Dev nD) (t : Fin cfg1.N) (d) : (latDat V c).before 2 t d = iblk1 V c 2 t :=
  ((latDat V c).before_in_eq_fetched 2 rfl (fun _ => rfl) (fun _ _ _ => rfl) (fun t => by rw [latAfter2]; unfold Dat.blockOf iblk1; rw [latA]; try rfl) t d).trans
    (by unfold Dat.fetched Dat.blockOf iblk1; rw [latA]; try rfl)
theorem latBefore3 (c : Dev nD) (t : Fin cfg1.N) (d) : (latDat V c).before 3 t d = iblk1 V c 3 t :=
  ((latDat V c).before_in_eq_fetched 3 rfl (fun _ => rfl) (fun _ _ _ => rfl) (fun t => by rw [latAfter3]; unfold Dat.blockOf iblk1; rw [latA]; try rfl) t d).trans
    (by unfold Dat.fetched Dat.blockOf iblk1; rw [latA]; try rfl)
theorem latBefore4 (c : Dev nD) (t : Fin cfg1.N) (d) : (latDat V c).before 4 t d = iblk1 V c 4 t :=
  ((latDat V c).before_in_eq_fetched 4 rfl (fun _ => rfl) (fun _ _ _ => rfl) (fun t => by rw [latAfter4]; unfold Dat.blockOf iblk1; rw [latA]; try rfl) t d).trans
    (by unfold Dat.fetched Dat.blockOf iblk1; rw [latA]; try rfl)
theorem latBefore5 (c : Dev nD) (t : Fin cfg1.N) (d) : (latDat V c).before 5 t d = iblk1 V c 5 t :=
  ((latDat V c).before_in_eq_fetched 5 rfl (fun _ => rfl) (fun _ _ _ => rfl) (fun t => by rw [latAfter5]; unfold Dat.blockOf iblk1; rw [latA]; try rfl) t d).trans
    (by unfold Dat.fetched Dat.blockOf iblk1; rw [latA]; try rfl)
theorem latBefore6 (c : Dev nD) (t : Fin cfg1.N) (d) : (latDat V c).before 6 t d = iblk1 V c 6 t :=
  ((latDat V c).before_in_eq_fetched 6 rfl (fun _ => rfl) (fun _ _ _ => rfl) (fun t => by rw [latAfter6]; unfold Dat.blockOf iblk1; rw [latA]; try rfl) t d).trans
    (by unfold Dat.fetched Dat.blockOf iblk1; rw [latA]; try rfl)

/-! ## The body obligation, at a generic point -/

/-- What the body is called with at point t, the windows one by one, -/
def latPre (c : Dev nD) (t : Fin cfg1.N) : sProp 𝕄 :=
  iprop((latDat V c).Φ t.castSucc ∗ (latDat V c).owesAt () t.castSucc
    ∗ (∃ d, owns (c : Thread nD τ) (st1_0 t) fullShare ((latDat V c).before 0 t d))
    ∗ (∃ d, owns (c : Thread nD τ) (st1_1 t) fullShare ((latDat V c).before 1 t d))
    ∗ (∃ d, owns (c : Thread nD τ) (st1_2 t) fullShare ((latDat V c).before 2 t d))
    ∗ (∃ d, owns (c : Thread nD τ) (st1_3 t) fullShare ((latDat V c).before 3 t d))
    ∗ (∃ d, owns (c : Thread nD τ) (st1_4 t) fullShare ((latDat V c).before 4 t d))
    ∗ (∃ d, owns (c : Thread nD τ) (st1_5 t) fullShare ((latDat V c).before 5 t d))
    ∗ (∃ d, owns (c : Thread nD τ) (st1_6 t) fullShare ((latDat V c).before 6 t d))
    ∗ (∃ d, owns (c : Thread nD τ) (st1_7 t) fullShare ((latDat V c).before 7 t d)))

/-- and what it returns. -/
def latPost (c : Dev nD) (t : Fin cfg1.N) : sProp 𝕄 :=
  iprop((latDat V c).Φ t.succ ∗ (latDat V c).owesAt () t.succ
    ∗ owns (c : Thread nD τ) (st1_0 t) fullShare ((latDat V c).after 0 t)
    ∗ owns (c : Thread nD τ) (st1_1 t) fullShare ((latDat V c).after 1 t)
    ∗ owns (c : Thread nD τ) (st1_2 t) fullShare ((latDat V c).after 2 t)
    ∗ owns (c : Thread nD τ) (st1_3 t) fullShare ((latDat V c).after 3 t)
    ∗ owns (c : Thread nD τ) (st1_4 t) fullShare ((latDat V c).after 4 t)
    ∗ owns (c : Thread nD τ) (st1_5 t) fullShare ((latDat V c).after 5 t)
    ∗ owns (c : Thread nD τ) (st1_6 t) fullShare ((latDat V c).after 6 t)
    ∗ owns (c : Thread nD τ) (st1_7 t) fullShare ((latDat V c).after 7 t))

/-- The body at any point: the inputs' buffers hold their blocks, so latKernel applies; the invariant and what the core
    owes pass through unread. -/
theorem latBody (c : Dev nD) (t : Fin cfg1.N) :
    latPre V c t ⊢ wp frame (wpE (defs₀ (F := F)) Variants.none c none) Set.univ (bodyAt1 t) (fun _ => latPost V c t) := by
  unfold latPre latPost bodyAt1
  simp only [latBefore0, latBefore1, latBefore2, latBefore3, latBefore4, latBefore5, latBefore6]
  rw [show (latDat V c).Φ t.succ = (latDat V c).Φ t.castSucc from rfl,
    show (latDat V c).owesAt () t.succ = (latDat V c).owesAt () t.castSucc from rfl,
    latAfter0, latAfter1, latAfter2, latAfter3, latAfter4, latAfter5, latAfter6, latAfter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (latKernel c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the lattice pipeline, at every point. -/
theorem latObligation (c : Dev nD) : BodyObligation (latDat (F := F) V c) (defs₀ (F := F)) Variants.none () Set.univ := fun t => by
  rw [bigSep_W1, bigSep_W1]
  exact latBody V c t

end Cert.KernelIdeal.Hand

end
-- ==== Proof.Segments.lean ====
/-
  The two kernel regions of @main as segments, over the thread state "every unscoped buffer at the boundary's
  contents, the generator register at some state, nothing owed".

  Between items the core's unscoped buffers hold: the launch contents; then the two bias rows reshaped; then the
  residual kernel's result array at what its ten write-backs leave, every other buffer as before; then two more bias
  rows reshaped; then the lattice kernel's result array at what its fifty write-backs leave; then the host tail.
  A region splits its windows' arrays out of the unscoped buffers at its entry and puts them back at its exit. The
  lattice region's feature array is named by two windows: its one buffer, held whole at the full share, is cut into two
  half shares at the entry, one per window, and joined again at the exit.
-/
import proofs.«149621_j6356551598646_2_alg».proof.Proof.ResidualBody
import proofs.«149621_j6356551598646_2_alg».proof.Proof.LatticeBody
import proofs.«149621_j6356551598646_2_alg».proof.Proof.Gen.KernelIdeal.Regions
import proofs.«149621_j6356551598646_2_alg».proof.Proof.LibSharedWindows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the regions leave -/

/-- The buffers as the residual region finds them, read at the TensorCore's references. -/
abbrev VR1 : (c : Dev nD) → (b : Ref sig .tc) → Buf (Elt F) ((c : Thread nD τ).loc b) := fun c b => V1 m c b

/-- What the residual region leaves in its result array: the ten write-backs folded. -/
def resArr (c : Dev nD) : Buf (Elt F) ((c : Thread nD τ).loc main_call0_v2) := (residDat (VR1 m) c).arrAt 5 cfg0.N

/-- The buffers as the lattice region finds them, given the residual region's result. -/
abbrev W3 (c : Dev nD) : Valuation τ sig (Elt F) := StableHlo.after hostOps1 (Function.update (V1 m c) main_call0_v2 (resArr m c))
abbrev VR3 : (c : Dev nD) → (b : Ref sig .tc) → Buf (Elt F) ((c : Thread nD τ).loc b) := fun c b => W3 m c b

/-- What the lattice region leaves in its result array: the fifty write-backs folded. -/
def latArr (c : Dev nD) : Buf (Elt F) ((c : Thread nD τ).loc main_call0_v5) := (latDat (VR3 m) c).arrAt 7 cfg1.N

/-- The contents the regions leave, as the family the boundary valuations are written over. -/
def outs : Outs (F := F) := fun _ r c =>
  if h : r = main_call0_v2 then h ▸ resArr m c
  else if h' : r = main_call0_v5 then h' ▸ latArr m c
  else m ((c : Thread nD τ).loc r)

theorem outs_v2 (j : ℕ) (c : Dev nD) : outs m j main_call0_v2 c = resArr m c := by
  unfold outs; rw [dif_pos rfl]
theorem outs_v5 (j : ℕ) (c : Dev nD) : outs m j main_call0_v5 c = latArr m c := by
  unfold outs; rw [dif_neg (by decide), dif_pos rfl]

theorem V2_eq (c : Dev nD) : V2 m (outs m) c = Function.update (V1 m c) main_call0_v2 (resArr m c) := by
  show Function.update (V1 m c) main_call0_v2 (outs m 2 main_call0_v2 c) = _
  rw [outs_v2]
theorem V3_eq (c : Dev nD) : V3 m (outs m) c = W3 m c := by
  show StableHlo.after hostOps1 (V2 m (outs m) c) = _
  rw [V2_eq]
theorem V4_eq (c : Dev nD) : V4 m (outs m) c = Function.update (W3 m c) main_call0_v5 (latArr m c) := by
  show Function.update (V3 m (outs m) c) main_call0_v5 (outs m 4 main_call0_v5 c) = _
  rw [outs_v5, V3_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => residDat (VR1 m) c
  | ⟨1, _⟩ => fun c => latDat (VR3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

/-! ## The residual region -/

theorem resid_hF (c : Dev nD) (w : Fin cfg0.W) :
    (residDat (VR1 m) c).arrAt w cfg0.N = (fun b : Ref sig .tc => V2 m (outs m) c b) (Pipeline.arrRef spec0 w) := by
  rw [V2_eq]
  match w with
  | ⟨0, _⟩ => exact ((residDat (VR1 m) c).arrAt_in 0 rfl _).trans ((residA (VR1 m) c 0).trans (Function.update_of_ne (StableHlo.devRef_ne_of_ne (by decide)) _ _).symm)
  | ⟨1, _⟩ => exact ((residDat (VR1 m) c).arrAt_in 1 rfl _).trans ((residA (VR1 m) c 1).trans (Function.update_of_ne (StableHlo.devRef_ne_of_ne (by decide)) _ _).symm)
  | ⟨2, _⟩ => exact ((residDat (VR1 m) c).arrAt_in 2 rfl _).trans ((residA (VR1 m) c 2).trans (Function.update_of_ne (StableHlo.devRef_ne_of_ne (by decide)) _ _).symm)
  | ⟨3, _⟩ => exact ((residDat (VR1 m) c).arrAt_in 3 rfl _).trans ((residA (VR1 m) c 3).trans (Function.update_of_ne (StableHlo.devRef_ne_of_ne (by decide)) _ _).symm)
  | ⟨4, _⟩ => exact ((residDat (VR1 m) c).arrAt_in 4 rfl _).trans ((residA (VR1 m) c 4).trans (Function.update_of_ne (StableHlo.devRef_ne_of_ne (by decide)) _ _).symm)
  | ⟨5, _⟩ =>
    show _ = Function.update (V1 m c) (Proc.devRef .tc main_call0_v2) (resArr m c) (Proc.devRef .tc main_call0_v2)
    rw [Function.update_self]; rfl

theorem resid_hrest (c : Dev nD) : ∀ b : Ref sig .tc, b ∉ Finset.univ.image (Pipeline.arrRef spec0) →
    (fun b : Ref sig .tc => V2 m (outs m) c b) b = VR1 m c b := fun b hb => by
  show V2 m (outs m) c b = V1 m c b
  rw [V2_eq]
  exact Function.update_of_ne (StableHlo.devRef_ne_of_ne fun e => hb (Finset.mem_image.mpr ⟨5, Finset.mem_univ _, e.symm⟩)) _ _

set_option backward.isDefEq.respectTransparency.types false in
/-- The residual region: entered from every unscoped buffer at the contents after the first reshapes, left at those
    contents with the result array at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (residObligation (VR1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (fun b : Ref sig .tc => V2 m (outs m) c b) ((pdats m 0 c).arrAt · cfg0.N) (resid_hF m c) (resid_hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The lattice region -/

/-- The buffers behind the lattice region's windows, each held whole at the full share, are the windows' arrays at the
    proof data's shares: every window but the two on the feature array names a buffer of its own; the feature array's
    buffer is cut into the two half shares. Read in both directions: at the entry and at the exit. -/
theorem lat_arrays_iff (c : Dev nD) (Vb : (b : Ref sig .tc) → Buf (Elt F) ((c : Thread nD τ).loc b))
    (Fa : (w : Fin cfg1.W) → Buf (Elt F) ((cfg1.win w).arr.view.loc (c : Thread nD τ)))
    (hF : ∀ w, Fa w = Vb (Pipeline.arrRef spec1 w)) :
    (Pipeline.arrBufs (Ix := Unit) (Name := ℕ) (U := UR sig nD τ) (Lvl := ℕ) spec1 c Vb : sProp 𝕄) ⊣⊢ (latDat (VR3 m) c).arrays Fa := by
  unfold Pipeline.arrBufs Dat.arrays
  refine SharedWindows.buffers_iff_windows (Pipeline.arrRef spec1) _ _ (w₁ := (1 : Fin 8)) (w₂ := (2 : Fin 8)) (by decide) rfl (by decide) (fun w h1 h2 => ?_) ?_
  · match w with
    | ⟨0, _⟩ => rw [(arr_whole1 0).set_eq_univ, hF]; rfl
    | ⟨1, _⟩ => exact absurd rfl h1
    | ⟨2, _⟩ => exact absurd rfl h2
    | ⟨3, _⟩ => rw [(arr_whole1 3).set_eq_univ, hF]; rfl
    | ⟨4, _⟩ => rw [(arr_whole1 4).set_eq_univ, hF]; rfl
    | ⟨5, _⟩ => rw [(arr_whole1 5).set_eq_univ, hF]; rfl
    | ⟨6, _⟩ => rw [(arr_whole1 6).set_eq_univ, hF]; rfl
    | ⟨7, _⟩ => rw [(arr_whole1 7).set_eq_univ, hF]; rfl
  · have e1 : (cfg1.win (1 : Fin 8)).arr.view.set = Finset.univ := (arr_whole1 1).set_eq_univ
    rw [e1, hF (1 : Fin 8), hF (2 : Fin 8)]
    exact pointsTo_share (PosShare.mem_left_op_right fullShare)

theorem lat_hF (c : Dev nD) (w : Fin cfg1.W) :
    (latDat (VR3 m) c).arrAt w cfg1.N = (fun b : Ref sig .tc => V4 m (outs m) c b) (Pipeline.arrRef spec1 w) := by
  rw [V4_eq]
  match w with
  | ⟨0, _⟩ => exact ((latDat (VR3 m) c).arrAt_in 0 rfl _).trans ((latA (VR3 m) c 0).trans (Function.update_of_ne (StableHlo.devRef_ne_of_ne (by decide)) _ _).symm)
  | ⟨1, _⟩ => exact ((latDat (VR3 m) c).arrAt_in 1 rfl _).trans ((latA (VR3 m) c 1).trans (Function.update_of_ne (StableHlo.devRef_ne_of_ne (by decide)) _ _).symm)
  | ⟨2, _⟩ => exact ((latDat (VR3 m) c).arrAt_in 2 rfl _).trans ((latA (VR3 m) c 2).trans (Function.update_of_ne (StableHlo.devRef_ne_of_ne (by decide)) _ _).symm)
  | ⟨3, _⟩ => exact ((latDat (VR3 m) c).arrAt_in 3 rfl _).trans ((latA (VR3 m) c 3).trans (Function.update_of_ne (StableHlo.devRef_ne_of_ne (by decide)) _ _).symm)
  | ⟨4, _⟩ => exact ((latDat (VR3 m) c).arrAt_in 4 rfl _).trans ((latA (VR3 m) c 4).trans (Function.update_of_ne (StableHlo.devRef_ne_of_ne (by decide)) _ _).symm)
  | ⟨5, _⟩ => exact ((latDat (VR3 m) c).arrAt_in 5 rfl _).trans ((latA (VR3 m) c 5).trans (Function.update_of_ne (StableHlo.devRef_ne_of_ne (by decide)) _ _).symm)
  | ⟨6, _⟩ => exact ((latDat (VR3 m) c).arrAt_in 6 rfl _).trans ((latA (VR3 m) c 6).trans (Function.update_of_ne (StableHlo.devRef_ne_of_ne (by decide)) _ _).symm)
  | ⟨7, _⟩ =>
    show _ = Function.update (W3 m c) (Proc.devRef .tc main_call0_v5) (latArr m c) (Proc.devRef .tc main_call0_v5)
    rw [Function.update_self]; rfl

theorem lat_hrest (c : Dev nD) : ∀ b : Ref sig .tc, b ∉ Finset.univ.image (Pipeline.arrRef spec1) →
    (fun b : Ref sig .tc => V4 m (outs m) c b) b = VR3 m c b := fun b hb => by
  show V4 m (outs m) c b = W3 m c b
  rw [V4_eq]
  exact Function.update_of_ne (StableHlo.devRef_ne_of_ne fun e => hb (Finset.mem_image.mpr ⟨7, Finset.mem_univ _, e.symm⟩)) _ _

set_option backward.isDefEq.respectTransparency.types false in
/-- The lattice region: entered from every unscoped buffer at the contents after the second reshapes, left at those
    contents with the result array at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (latObligation (VR3 m) c).loose
  hwaits := Pipeline.hwaits_of_owed_zero _ _ _ _ L lv 1 fun _ _ => rfl
  pre c := iprop(StableHlo.held (c : Thread nD τ) (Pipeline.ucRefs τ sig) (V3 m (outs m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit : (unscopedBufs c (VR3 m c) : sProp 𝕄)
        ⊢ iprop((pdats m 1 c).arrays ((pdats m 1 c).arrAt · 0) ∗ Pipeline.unscopedRest spec1 c (VR3 m c)) := by
      rw [Pipeline.unscopedBufs_split₀ cfgs 1 winFacts₀1.arr_unscoped c (VR3 m c)]
      exact sep_mono (lat_arrays_iff m c (VR3 m c) _ (fun w => latA (VR3 m) c w)).1 .rfl
    rw [Pipeline.unscopedBufs_held] at hsplit
    rw [V3_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VR3 m c))
        ⊢ (unscopedBufs c (fun b : Ref sig .tc => V4 m (outs m) c b) : sProp 𝕄) := by
      rw [Pipeline.unscopedBufs_split₀ cfgs 1 winFacts₀1.arr_unscoped c (fun b : Ref sig .tc => V4 m (outs m) c b)]
      refine sep_mono (lat_arrays_iff m c _ _ (lat_hF m c)).2 (Entails.of_eq ?_)
      unfold Pipeline.unscopedRest
      exact bigSep_congr fun b hb => by rw [lat_hrest m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/-
  The run of @main: the launch over its five segments — two reshapes, the residual region, two reshapes, the lattice
  region, the host tail.

  Every weakly fair execution terminates, nothing faulting, and in the final state every unscoped buffer holds the
  last boundary's contents: the launch contents folded through the host stretches and the two regions' results.
  The arguments are among those buffers and no item writes one, which is the frame; the result buffer is among them
  too, which is what a claim about the program's value starts from.
-/
import proofs.«149621_j6356551598646_2_alg».proof.Proof.Segments

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element yields the pipeline library's at every staging cell; no other ghost resource. -/
theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers is made on every core from what the launch deals it: the generator register, and the
    core owing nothing. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (Er (F := F) 0) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : Er (F := F) 2 c ⊢ (iprop(∃ W, owes (c : Thread nD τ) (0 : CellTallies nD τ sig Unit) W) : sProp 𝕄) := by
  iintro ⟨-, HO⟩; iexact HO

/-- THE FRAME, at any instance of the floats: every weakly fair execution of @main terminates, nothing faulting, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) launch_ghost Er (launch_rest ρ) rest_owes
    (reg0 m) (fun _ => .rfl) (fun _ => .rfl) (reg1 m) (fun _ => .rfl) (fun _ => .rfl)

/-- The launch: the unscoped buffers are held at the launch contents, and what rides beside them is made on every core
    at once, whatever it is. -/
theorem launch_init (E0 : Dev nD → sProp 𝕄)
    (hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (Pipeline.ucRefs τ sig) (V0 m c) ∗ E0 c) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hE0 $$ [Hr Hla] with HE
  · isplitl [Hr]; · iexact Hr
    iexact Hla
  imodintro
  rw [bigSep_sep']
  isplitl [Hh]; · iexact Hh
  iexact HE

set_option backward.isDefEq.respectTransparency.types false in
/-- THE RUN, with every buffer read at the end: every weakly fair execution of @main terminates, nothing faulting, and
    in the final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) := by
  refine Pipeline.θ_run_regions_kit_dev (pcfgs (F := F)) adm (pdats m) () cellOf_inj emb₁ defs₀ 𝒱₀ L lv m ρ main
    (segs m (outs m) 𝒱₀ L lv Er () (pdats m) (reg0 m) (reg1 m))
    (fun c Q => by
      rewrite [main_chain c, Seg.run_eq_chain,
        show (segs m (outs m) 𝒱₀ L lv Er () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_ghost
    (T₀ := fun c => iprop(StableHlo.held (c : Thread nD τ) (Pipeline.ucRefs τ sig) (V0 m c) ∗ Er (F := F) 0 c))
    (Tₙ := fun c => StableHlo.held (c : Thread nD τ) (Pipeline.ucRefs τ sig) (V5 m (outs m) c))
    (hch := fun c => ⟨.rfl, .rfl, .rfl, .rfl, .rfl, sep_mono .rfl (rest_owes c)⟩)
    (hinit := ?_)
    (QY := fun c s => ∀ b ∈ Pipeline.ucRefs τ sig, s.mem (((c : Thread nD τ)).1, b) = V5 m (outs m) c b)
    (hfin := fun c s' => ?_) (hQ := fun _ h => h)
  · exact launch_init m ρ (Er (F := F) 0) (launch_rest (F := F) ρ)
  · -- the end: every buffer read off the last valuation
    unfold StableHlo.held
    iintro ⟨Hh, HSI⟩
    imodintro
    iapply (pointsTo_read_all (Pipeline.ucRefs τ sig) (fun b => (((c : Thread nD τ)).1, b)) (V5 m (outs m) c) s')
    isplitl [Hh] <;> iassumption

end Cert.KernelIdeal.Hand

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«149621_j6356551598646_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibLayers.lean ====
/-
  General definitions and lemmas: the layers of a graph convolution, as functions of whole arrays of extended reals.

  A layer multiplies the features by a weight matrix, multiplies the adjacency matrix by the result and adds a
  bias to every row: `A · (H · W) + b`.  Between layers every entry is replaced by its maximum with zero.
  All of it is row-wise in the adjacency matrix: row `r` of the result depends on `A` only through row `r` of `A`.
  So any selection of rows of `A` (a block of consecutive rows, in particular) gives the same selection of rows of
  the result — which is what lets a result computed block of rows by block of rows be read as one array.
-/
import Idealize.ShloMosaic.Lib.Pipeline.Value
import Idealize.ShloMosaic.Lib.ValueIdx
import proofs.«149621_j6356551598646_2_alg».proof.Proof.LibMatmulRead

open scoped BigOperators

noncomputable section

namespace Cert.Layers

open Idealize.ShloMosaic Idealize.ShloMosaic.ValueIdx Cert.GCN

/-- A one-axis array of extended reals. -/
abbrev Row (p : Nat) := (⟨1, ![p]⟩ : Shape).Idx → EReal

/-- A vector laid out as the single row of a `[1, p]` array. -/
def asRow {p : Nat} (b : Row p) : Arr 1 p := fun i => b (ix1 (i 1))

/-- A one-row array added to every row. -/
def addRow {n p : Nat} (X : Arr n p) (b : Arr 1 p) : Arr n p := fun i => X i + b (ix2 (0 : Fin 1) (i 1))

/-- Every entry replaced by its maximum with zero. -/
def relu {n p : Nat} (X : Arr n p) : Arr n p := fun i => max (X i) 0

theorem addRow_apply {n p : Nat} (X : Arr n p) (b : Arr 1 p) (r : Fin n) (c : Fin p) :
    addRow X b (ix2 r c) = X (ix2 r c) + b (ix2 (0 : Fin 1) c) := rfl

theorem relu_apply {n p : Nat} (X : Arr n p) (r : Fin n) (c : Fin p) : relu X (ix2 r c) = max (X (ix2 r c)) 0 := rfl

/-- The features handed to the next layer: `max (A · S + b, 0) · W`, where `S` is the previous product. -/
def hidden {n k q p : Nat} (A : Arr n k) (S : Arr k q) (b : Arr 1 q) (W : Arr q p) : Arr n p :=
  mm (relu (addRow (mm A S) b)) W

/-- The last layer's result: `A · S + b`. -/
def affine {n k p : Nat} (A : Arr n k) (S : Arr k p) (b : Arr 1 p) : Arr n p := addRow (mm A S) b

/-! ## Rows of the result come from the same rows of the left factor -/

section Rows

variable {N n : Nat} (f : Fin n → Fin N)

theorem mm_rows {k p : Nat} (A : Arr N k) (A' : Arr n k) (B : Arr k p)
    (h : ∀ r d, A' (ix2 r d) = A (ix2 (f r) d)) (r : Fin n) (c : Fin p) :
    mm A' B (ix2 r c) = mm A B (ix2 (f r) c) := by
  rw [mm_apply, mm_apply]
  exact Finset.sum_congr rfl fun d _ => by rw [h r d]

theorem addRow_rows {p : Nat} (X : Arr N p) (X' : Arr n p) (b : Arr 1 p)
    (h : ∀ r c, X' (ix2 r c) = X (ix2 (f r) c)) (r : Fin n) (c : Fin p) :
    addRow X' b (ix2 r c) = addRow X b (ix2 (f r) c) := by
  rw [addRow_apply, addRow_apply, h r c]

theorem relu_rows {p : Nat} (X : Arr N p) (X' : Arr n p)
    (h : ∀ r c, X' (ix2 r c) = X (ix2 (f r) c)) (r : Fin n) (c : Fin p) :
    relu X' (ix2 r c) = relu X (ix2 (f r) c) := by
  rw [relu_apply, relu_apply, h r c]

theorem hidden_rows {k q p : Nat} (A : Arr N k) (A' : Arr n k) (S : Arr k q) (b : Arr 1 q) (W : Arr q p)
    (h : ∀ r d, A' (ix2 r d) = A (ix2 (f r) d)) (r : Fin n) (c : Fin p) :
    hidden A' S b W (ix2 r c) = hidden A S b W (ix2 (f r) c) :=
  mm_rows f _ _ W (relu_rows f _ _ (addRow_rows f _ _ b (mm_rows f A A' S h))) r c

theorem affine_rows {k p : Nat} (A : Arr N k) (A' : Arr n k) (S : Arr k p) (b : Arr 1 p)
    (h : ∀ r d, A' (ix2 r d) = A (ix2 (f r) d)) (r : Fin n) (c : Fin p) :
    affine A' S b (ix2 r c) = affine A S b (ix2 (f r) c) :=
  addRow_rows f _ _ b (mm_rows f A A' S h) r c

end Rows

/-! ## A one-row array spread over all rows, read at an entry -/

/-- A `[1, b]` array broadcast to `[a, b]` reads, at `(i, j)`, its only row at `j`. -/
theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.Layers

end
-- ==== Proof.LibLayerOps.lean ====
/-
  General lemmas: the operations of a dense layer, as a kernel body and as the host spell them, read as whole
  arrays at the ideal values.

  In a kernel body: a plain matrix product into the zero accumulator is the matrix product; adding a one-row array
  spread over the rows adds that row to every row; the maximum with the zero splat is the maximum with zero.
  On the host: a plain `dot_general` is the matrix product; a bias vector is added to every row by broadcasting it
  first to one row and then over all rows; the maximum with zero is taken against a broadcast scalar zero; and a
  vector reshaped to one row is that vector as a row.
-/
import Idealize.ShloMosaic.Lib.Pipeline.Value
import Idealize.ShloMosaic.Lib.ValueIdx
import Idealize.ShloMosaic.PureOps.Ideal.Laws
import proofs.«149621_j6356551598646_2_alg».proof.Proof.LibLayers

noncomputable section

namespace Cert.LayerOps

open Idealize.ShloMosaic Idealize.ShloMosaic.ValueIdx Cert.GCN Cert.Layers

/-- A plain matrix product into the zero accumulator is the product of its operands, as whole arrays. -/
theorem matmul_zero_eq_mm {M K N : Nat} {φ₁ φ₂ : FTy} (prec : Option ContractPrecision)
    (l : FVec Ideal ⟨2, ![M, K]⟩ φ₁) (w : FVec Ideal ⟨2, ![K, N]⟩ φ₂) :
    (FloatOps.matmul (DotDims.plain M K N) prec l w (constant ⟨2, ![M, N]⟩ .f32 0x00000000#32) : Arr M N) = mm l w := by
  funext i
  rw [eq_ix2 i]
  exact matmul_plain_zero_apply prec l w (i 0) (i 1)

/-- Adding a one-row array spread over the rows adds that row to every row. -/
theorem addf_row {a b : Nat} (X : FVec Ideal ⟨2, ![a, b]⟩ .f32) (v : FVec Ideal ⟨2, ![1, b]⟩ .f32)
    (h : (⟨2, ![1, b]⟩ : Shape).Broadcasts ⟨2, ![a, b]⟩) :
    (addf X (broadcastTo ⟨2, ![a, b]⟩ v h) : Arr a b) = addRow X v := by
  funext i
  rw [eq_ix2 i]
  exact congrArg (X (ix2 (i 0) (i 1)) + ·) (broadcastTo_row_apply v h (i 0) (i 1))

/-- The maximum with the zero splat is the maximum with zero. -/
theorem maximumf_zero {a b : Nat} (X : FVec Ideal ⟨2, ![a, b]⟩ .f32) :
    (maximumf X (broadcast ⟨2, ![a, b]⟩ (Scalar.ofBits (F := Ideal) .f32 0x00000000#32)) : Arr a b) = relu X := by
  funext i
  show max (X i) (Ideal.ofBits .f32 0x00000000#32) = max (X i) 0
  rw [Ideal.ofBits_zero_f32]

end Cert.LayerOps

namespace Cert.HostLayers

open Idealize.ShloMosaic Idealize.ShloMosaic.ValueIdx Cert.GCN Cert.Layers

/-- A plain `dot_general` on the host is the matrix product of its operands. -/
theorem hostDot_plain {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (w : FVec Ideal ⟨2, ![K, N]⟩ .f32) :
    (Host.dotGeneral D prec l w : Arr M N) = mm l w := by
  subst hD
  exact hostDot_eq_mm prec .single l w

/-- A vector broadcast to one row and then over all rows reads, at `(r, c)`, the vector at `c`. -/
theorem bias_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (r : Fin n) (c : Fin p) :
    broadcastInDim ⟨2, ![n, p]⟩ ![0, 1] h2 (broadcastInDim ⟨2, ![1, p]⟩ ![1] h1 b) (ix2 r c) = b (ix1 c) := by
  refine (broadcastInDim_apply ![0, 1] h2 _ (ix2 r c) (ix2 (0 : Fin 1) c) fun a => ?_).trans ?_
  · match a with
    | ⟨0, _⟩ => rfl
    | ⟨1, _⟩ =>
      show c.val = if p = 1 then 0 else c.val
      split
      · have := c.isLt; omega
      · rfl
  · refine broadcastInDim_apply ![1] h1 b (ix2 (0 : Fin 1) c) (ix1 c) fun a => ?_
    match a with
    | ⟨0, _⟩ =>
      show c.val = if p = 1 then 0 else c.val
      split
      · have := c.isLt; omega
      · rfl

/-- Adding that broadcast to an array adds the vector, as a row, to every row. -/
theorem host_addRow {n p : Nat} (X : FVec Ideal ⟨2, ![n, p]⟩ .f32) (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) :
    (addf X (broadcastInDim ⟨2, ![n, p]⟩ ![0, 1] h2 (broadcastInDim ⟨2, ![1, p]⟩ ![1] h1 b)) : Arr n p)
      = addRow X (asRow b) := by
  funext i
  rw [eq_ix2 i]
  exact congrArg (X (ix2 (i 0) (i 1)) + ·) (bias_apply b h1 h2 (i 0) (i 1))

/-- The maximum with the broadcast scalar zero is the maximum with zero. -/
theorem host_relu {n p : Nat} (X : FVec Ideal ⟨2, ![n, p]⟩ .f32)
    (h : (⟨0, ![]⟩ : Shape).BroadcastsInDim ⟨2, ![n, p]⟩ ![]) :
    (maximumf X (broadcastInDim ⟨2, ![n, p]⟩ ![] h (constant (F := Ideal) ⟨0, ![]⟩ .f32 0x00000000#32)) : Arr n p) = relu X := by
  funext i
  show max (X i) (broadcastInDim ⟨2, ![n, p]⟩ ![] h (constant (F := Ideal) ⟨0, ![]⟩ .f32 0x00000000#32) i) = max (X i) 0
  rw [broadcastInDim_apply ![] h _ i ix0 (fun a => a.elim0)]
  show max (X i) (Ideal.ofBits .f32 0x00000000#32) = _
  rw [Ideal.ofBits_zero_f32]

/-- A vector reshaped to one row is that vector as a row. -/
theorem reshape_asRow {p : Nat} (b : FVec Ideal ⟨1, ![p]⟩ .f32) (h : (⟨1, ![p]⟩ : Shape).ShapeCasts ⟨2, ![1, p]⟩) :
    (shapeCast ⟨2, ![1, p]⟩ b h : Arr 1 p) = asRow b := by
  funext i
  have h0 : (i 0).val < 1 := (i 0).isLt
  refine shapeCast_apply b h i (ix1 (i 1)) ?_
  rw [Shape.rowMajor_val_two, Shape.rowMajor_val_one]
  show (i 1).val = (i 0).val * p + (i 1).val
  have : (i 0).val = 0 := by omega
  rw [this, Nat.zero_mul, Nat.zero_add]

end Cert.HostLayers

end
-- ==== Proof.Spec.lean ====
/-
  The two dense stages of the message-passing block, as functions of whole arrays of extended reals.

  The residual stage maps the node features X to max(X + (max(X·W1 + b1, 0)·W2 + b2), 0). The lattice stage maps
  an adjacency matrix A, the features V (once as the right factor of A·V, once row by row) and two weight matrices
  to max(V·Wl1 + bl1, 0) + max((A·V)·Wl2 + bl2, 0). Both are row-wise in their row operands: row r of the result
  depends on X (on A and on the row copy of V) only through row r. So a result computed a block of consecutive rows
  at a time is the same array as the result computed at once.
-/
import proofs.«149621_j6356551598646_2_alg».proof.Proof.LibLayers

open scoped BigOperators

noncomputable section

namespace Cert.Spec

open Idealize.ShloMosaic Idealize.ShloMosaic.ValueIdx Cert.GCN Cert.Layers

/-- Entrywise sum of two arrays. -/
def add2 {n p : Nat} (X Y : Arr n p) : Arr n p := fun i => X i + Y i

theorem add2_apply {n p : Nat} (X Y : Arr n p) (r : Fin n) (c : Fin p) : add2 X Y (ix2 r c) = X (ix2 r c) + Y (ix2 r c) := rfl

/-- The residual stage: max(X + (max(X·W1 + b1, 0)·W2 + b2), 0). -/
def residual {n k h : Nat} (X : Arr n k) (W1 : Arr k h) (b1 : Arr 1 h) (W2 : Arr h k) (b2 : Arr 1 k) : Arr n k :=
  relu (add2 X (addRow (hidden X W1 b1 W2) b2))

/-- The lattice stage: max(Vr·Wl1 + bl1, 0) + max((A·Vc)·Wl2 + bl2, 0); Vc is the features as the right factor,
    Vr the features row by row. -/
def lattice {n N k p : Nat} (A : Arr n N) (Vc : Arr N k) (Vr : Arr n k) (Wl1 : Arr k p) (bl1 : Arr 1 p) (Wl2 : Arr k p) (bl2 : Arr 1 p) : Arr n p :=
  add2 (relu (addRow (mm Vr Wl1) bl1)) (relu (addRow (mm (mm A Vc) Wl2) bl2))

section Rows

variable {N n : Nat} (f : Fin n → Fin N)

theorem add2_rows {p : Nat} (X Y : Arr N p) (X' Y' : Arr n p)
    (hX : ∀ r c, X' (ix2 r c) = X (ix2 (f r) c)) (hY : ∀ r c, Y' (ix2 r c) = Y (ix2 (f r) c)) (r : Fin n) (c : Fin p) :
    add2 X' Y' (ix2 r c) = add2 X Y (ix2 (f r) c) := by
  rw [add2_apply, add2_apply, hX r c, hY r c]

/-- Rows of the residual stage come from the same rows of the features. -/
theorem residual_rows {k h : Nat} (X : Arr N k) (X' : Arr n k) (W1 : Arr k h) (b1 : Arr 1 h) (W2 : Arr h k) (b2 : Arr 1 k)
    (hX : ∀ r d, X' (ix2 r d) = X (ix2 (f r) d)) (r : Fin n) (c : Fin k) :
    residual X' W1 b1 W2 b2 (ix2 r c) = residual X W1 b1 W2 b2 (ix2 (f r) c) :=
  relu_rows f _ _ (add2_rows f _ _ _ _ hX (addRow_rows f _ _ b2 (hidden_rows f X X' W1 b1 W2 hX))) r c

/-- Rows of the lattice stage come from the same rows of the adjacency matrix and of the row copy of the features. -/
theorem lattice_rows {M k p : Nat} (A : Arr N M) (A' : Arr n M) (Vc : Arr M k) (Vr : Arr N k) (Vr' : Arr n k)
    (Wl1 : Arr k p) (bl1 : Arr 1 p) (Wl2 : Arr k p) (bl2 : Arr 1 p)
    (hA : ∀ r d, A' (ix2 r d) = A (ix2 (f r) d)) (hV : ∀ r d, Vr' (ix2 r d) = Vr (ix2 (f r) d)) (r : Fin n) (c : Fin p) :
    lattice A' Vc Vr' Wl1 bl1 Wl2 bl2 (ix2 r c) = lattice A Vc Vr Wl1 bl1 Wl2 bl2 (ix2 (f r) c) :=
  add2_rows f _ _ _ _ (relu_rows f _ _ (addRow_rows f _ _ bl1 (mm_rows f Vr Vr' Wl1 hV)))
    (relu_rows f _ _ (addRow_rows f _ _ bl2 (mm_rows f _ _ Wl2 (mm_rows f A A' Vc hA)))) r c

end Rows

end Cert.Spec

end
-- ==== Proof.PayloadSpec.lean ====
/-
  The two kernel bodies' stored values, as whole arrays of extended reals.

  At the ideal values a change of float format is the identity and a cast to the same shape is the identity; a plain
  matrix product into the zero accumulator is the matrix product, a one-row array spread over the rows and added is that
  row added to every row, and the maximum with the zero splat is the maximum with zero. So the first body's stored
  value is the residual stage of its operands, and the second body's is the lattice stage of its operands.
-/
import proofs.«149621_j6356551598646_2_alg».proof.Proof.Gen.KernelIdeal.Skeleton
import proofs.«149621_j6356551598646_2_alg».proof.Proof.LibLayerOps
import proofs.«149621_j6356551598646_2_alg».proof.Proof.Spec

noncomputable section

namespace Cert.PayloadSpec

open Idealize.ShloMosaic Idealize.ShloMosaic.ValueIdx Cert.GCN Cert.Layers Cert.LayerOps Cert.KernelIdeal Cert.KernelIdeal.Gen

/-- At the ideal values a narrowing of the float format leaves a vector as it is. -/
theorem truncf_id {s : Shape} {φ : FTy} (ψ : FTy) (x : FVec Ideal s φ) (h : ψ.bits < φ.bits) :
    truncf ψ x h = x := rfl

/-- The first body's stored value is the residual stage of the values it loaded. -/
theorem residual_payload (x0 : Vec Ideal S1000x256 .f32) (x1 : Vec Ideal S256x512 .f32) (x2 : Vec Ideal S1x512 .f32)
    (x3 : Vec Ideal S512x256 .f32) (x4 : Vec Ideal S1x256 .f32) :
    (Cert.KernelIdeal.Gen.k0_pay1 (F := Ideal) x0 x1 x2 x3 x4 : Cert.GCN.Arr 1000 256) = Cert.Spec.residual x0 x1 x2 x3 x4 := by
  have hD1 : dot_S1000x256_S256x512_S1000x512_1_0_0_1_n_n = DotDims.plain 1000 256 512 := rfl
  have hD2 : dot_S1000x512_S512x256_S1000x256_1_0_0_1_n_n = DotDims.plain 1000 512 256 := rfl
  unfold k0_pay1
  simp only [truncf_id, shapeCast_self, matmul]
  rw [hD1, hD2]
  rw [matmul_zero_eq_mm, matmul_zero_eq_mm, addf_row, addf_row, maximumf_zero, maximumf_zero]
  rfl

/-- The second body's stored value is the lattice stage of the values it loaded: the adjacency rows, the features
    whole (the right factor) and row by row, and the two weight matrices with their biases. -/
theorem lattice_payload (a : Vec Ideal S200x10000 .f32) (vc : Vec Ideal S10000x256 .bf16) (wl2 : Vec Ideal S256x256 .f32)
    (bl2 : Vec Ideal S1x256 .f32) (vr : Vec Ideal S200x256 .bf16) (wl1 : Vec Ideal S256x256 .f32) (bl1 : Vec Ideal S1x256 .f32) :
    (Cert.KernelIdeal.Gen.k1_pay1 (F := Ideal) a vc wl2 bl2 vr wl1 bl1 : Cert.GCN.Arr 200 256) = Cert.Spec.lattice a vc vr wl1 bl1 wl2 bl2 := by
  have hD1 : dot_S200x10000_S10000x256_S200x256_1_0_0_1_n_n = DotDims.plain 200 10000 256 := rfl
  have hD2 : dot_S200x256_S256x256_S200x256_1_0_0_1_n_n = DotDims.plain 200 256 256 := rfl
  unfold k1_pay1
  simp only [truncf_id, shapeCast_self, matmul]
  rw [hD1, hD2]
  rw [matmul_zero_eq_mm, matmul_zero_eq_mm, matmul_zero_eq_mm, addf_row, addf_row, maximumf_zero, maximumf_zero]
  rfl

end Cert.PayloadSpec

end
-- ==== Proof.ResidualValue.lean ====
/-
  The residual kernel's result array, from row blocks to the whole array.

  The grid has ten points. Point t reads rows 1000·t … 1000·t + 999 of the features and the whole of both weight
  matrices and both bias rows, and writes rows 1000·t … 1000·t + 999 of the result. The stored value is the residual
  stage of the loaded blocks, and the residual stage is row-wise in the features: row r of it depends on the features
  only through row r. So what point t writes back is block t of the residual stage of the whole arrays; the ten
  blocks tile the 10000 rows (row r lies in block r / 1000) and every point writes its block back; hence after the
  last point the result array is the residual stage of the whole arrays.
-/
import proofs.«149621_j6356551598646_2_alg».proof.Proof.ResidualBody
import proofs.«149621_j6356551598646_2_alg».proof.Proof.PayloadSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The zero offsets of a whole-block rectangle, spelt as the constant function. -/
theorem residZero : (![0, 0] : Fin 2 → Nat) = fun _ => 0 := funext fun a => by fin_cases a <;> rfl

/-! ## The block indices over the grid -/

/-- The index maps, decided once over the ten grid points: the feature block and the result block are both
    row block t, column block 0; the weight matrices and bias rows stay at block (0, 0). -/
theorem residIdx : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every row block is some point's. -/
theorem residOnto : ∀ q : Fin 10, ∃ t : Fin cfg0.N, win0_5.index t = ![q.val, 0] :=
  (by decide +kernel : ∀ q : Fin 10, ∃ t : Fin grid0.N, win0_5.index t = ![q.val, 0])

/-! ## The input blocks as parts of their arrays -/

/-- The feature block at point t is rows 1000·t … 1000·t + 999 of the features. -/
theorem residBlk0 (c : Dev nD) (t : Fin cfg0.N) (y : S1000x256.Idx) (k : S10000x256.Idx)
    (hk0 : (k 0).val = t.val * 1000 + (y 0).val) (hk1 : (k 1).val = (y 1).val) :
    (iblk0 V c 0 t : Vec Ideal S1000x256 .f32) y = (V c main_arg0 : S10000x256.Idx → Elt Ideal .f32) k := by
  obtain ⟨e0, e1, -⟩ := residIdx t
  show V c main_arg0 (((cfg0.win 0).blk t).view.emb y) = V c main_arg0 k
  congr 1
  funext a
  apply Fin.ext
  match a with
  | ⟨0, _⟩ => show win0_0.index t (0 : Fin 2) * 1000 + 1 * (y 0).val = (k 0).val; omega
  | ⟨1, _⟩ => show win0_0.index t (1 : Fin 2) * 256 + 1 * (y 1).val = (k 1).val; omega

/-- The first weight matrix's block is the matrix. -/
theorem residBlk1 (c : Dev nD) (t : Fin cfg0.N) (y : S256x512.Idx) :
    (iblk0 V c 1 t : Vec Ideal S256x512 .f32) y = (V c main_arg4 : S256x512.Idx → Elt Ideal .f32) y := by
  obtain ⟨-, -, -, -, e0, e1, -⟩ := residIdx t
  show V c main_arg4 (((cfg0.win 1).blk t).view.emb y) = V c main_arg4 y
  congr 1
  funext a
  apply Fin.ext
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The first bias row's block is the row. -/
theorem residBlk2 (c : Dev nD) (t : Fin cfg0.N) (y : S1x512.Idx) :
    (iblk0 V c 2 t : Vec Ideal S1x512 .f32) y = (V c main_call0_v0 : S1x512.Idx → Elt Ideal .f32) y := by
  obtain ⟨-, -, -, -, -, -, e0, e1, -⟩ := residIdx t
  show V c main_call0_v0 (((cfg0.win 2).blk t).view.emb y) = V c main_call0_v0 y
  congr 1
  funext a
  apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The second weight matrix's block is the matrix. -/
theorem residBlk3 (c : Dev nD) (t : Fin cfg0.N) (y : S512x256.Idx) :
    (iblk0 V c 3 t : Vec Ideal S512x256 .f32) y = (V c main_arg6 : S512x256.Idx → Elt Ideal .f32) y := by
  obtain ⟨-, -, -, -, -, -, -, -, e0, e1, -⟩ := residIdx t
  show V c main_arg6 (((cfg0.win 3).blk t).view.emb y) = V c main_arg6 y
  congr 1
  funext a
  apply Fin.ext
  match a with
  | ⟨0, _⟩ => show win0_3.index t (0 : Fin 2) * 512 + 1 * (y 0).val = (y 0).val; omega
  | ⟨1, _⟩ => show win0_3.index t (1 : Fin 2) * 256 + 1 * (y 1).val = (y 1).val; omega

/-- The second bias row's block is the row. -/
theorem residBlk4 (c : Dev nD) (t : Fin cfg0.N) (y : S1x256.Idx) :
    (iblk0 V c 4 t : Vec Ideal S1x256 .f32) y = (V c main_call0_v1 : S1x256.Idx → Elt Ideal .f32) y := by
  obtain ⟨-, -, -, -, -, -, -, -, -, -, e0, e1⟩ := residIdx t
  show V c main_call0_v1 (((cfg0.win 4).blk t).view.emb y) = V c main_call0_v1 y
  congr 1
  funext a
  apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## One block of the result -/

/-- The residual stage of a block of 1000 consecutive rows of the features, with the same weights and biases, is the
    same rows of the residual stage of all the features. -/
theorem residRows (X : Arr 10000 256) (W1 : Arr 256 512) (b1 : Arr 1 512) (W2 : Arr 512 256) (b2 : Arr 1 256)
    (x0 : Arr 1000 256) (x1 : Arr 256 512) (x2 : Arr 1 512) (x3 : Arr 512 256) (x4 : Arr 1 256) (q : Nat) (hq : q < 10)
    (h0 : ∀ (r : Fin 1000) (d : Fin 256) (k : S10000x256.Idx), (k 0).val = q * 1000 + r.val → (k 1).val = d.val → x0 (ix2 r d) = X k)
    (h1 : x1 = W1) (h2 : x2 = b1) (h3 : x3 = W2) (h4 : x4 = b2)
    (r : Fin 1000) (d : Fin 256) (k : S10000x256.Idx) (hk0 : (k 0).val = q * 1000 + r.val) (hk1 : (k 1).val = d.val) :
    Cert.Spec.residual x0 x1 x2 x3 x4 (ix2 r d) = Cert.Spec.residual X W1 b1 W2 b2 k := by
  subst h1 h2 h3 h4
  have hk : k = ix2 (⟨q * 1000 + r.val, by omega⟩ : Fin 10000) d := by
    funext a
    apply Fin.ext
    match a with
    | ⟨0, _⟩ => exact hk0
    | ⟨1, _⟩ => exact hk1
  rw [hk]
  exact Cert.Spec.residual_rows (fun r : Fin 1000 => (⟨q * 1000 + r.val, by omega⟩ : Fin 10000)) X x0 x1 x2 x3 x4
    (fun r d => h0 r d _ rfl rfl) r d

/-- The residual stage of the arrays as the region finds them. -/
abbrev residWhole (c : Dev nD) : S10000x256.Idx → EReal :=
  Cert.Spec.residual (V c main_arg0) (V c main_arg4) (V c main_call0_v0) (V c main_arg6) (V c main_call0_v1)

/-- What point t writes back is block t of the residual stage of the whole arrays. -/
theorem residFlushed (c : Dev nD) (t : Fin cfg0.N) :
    (residDat (F := Ideal) V c).flushed 5 t = ((cfg0.win 5).blk t).view.read (Elt Ideal) (residWhole V c) := by
  show (cfg0.win 5).cut (grid0.coords t) ((residDat V c).after 5 t) = _
  rw [residAfter5]
  unfold residOut
  rw [View.canon_unit_zero residZero]
  simp only [View.ld_unit_zero (S := S1000x256) residZero, View.ld_unit_zero (S := S256x512) residZero,
    View.ld_unit_zero (S := S1x512) residZero, View.ld_unit_zero (S := S512x256) residZero,
    View.ld_unit_zero (S := S1x256) residZero]
  have ht : t.val < 10 := lt_of_lt_of_eq t.isLt N_0
  obtain ⟨-, -, e0, e1, -⟩ := residIdx t
  funext j
  obtain ⟨r, d, rfl⟩ : ∃ (r : Fin 1000) (d : Fin 256), j = ix2 r d := ⟨j 0, j 1, eq_ix2 j⟩
  show (k0_pay1 (F := Ideal) (iblk0 V c 0 t) (iblk0 V c 1 t) (iblk0 V c 2 t) (iblk0 V c 3 t) (iblk0 V c 4 t) : Arr 1000 256) (ix2 r d)
    = residWhole V c (((cfg0.win 5).blk t).view.emb (ix2 r d))
  refine (congrFun (Cert.PayloadSpec.residual_payload (iblk0 V c 0 t) (iblk0 V c 1 t) (iblk0 V c 2 t) (iblk0 V c 3 t) (iblk0 V c 4 t)) (ix2 r d)).trans ?_
  refine residRows (V c main_arg0) (V c main_arg4) (V c main_call0_v0) (V c main_arg6) (V c main_call0_v1)
    (iblk0 V c 0 t) (iblk0 V c 1 t) (iblk0 V c 2 t) (iblk0 V c 3 t) (iblk0 V c 4 t) t.val ht
    (fun r d k hk0 hk1 => residBlk0 V c t (ix2 r d) k hk0 hk1)
    (funext (residBlk1 V c t)) (funext (residBlk2 V c t)) (funext (residBlk3 V c t)) (funext (residBlk4 V c t))
    r d _ ?_ ?_
  · show win0_5.index t (0 : Fin 2) * 1000 + 1 * r.val = t.val * 1000 + r.val
    omega
  · show win0_5.index t (1 : Fin 2) * 256 + 1 * d.val = d.val
    omega

/-! ## The blocks tile the array -/

/-- An index of the result array is in point t's block iff each coordinate is in the block's range on its axis. -/
theorem residMemBlk (t : Fin cfg0.N) (i : S10000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_call0_v2).slice (win0_5.rect t)).set ↔ _
  rw [View.set_slice_whole, Rect.mem_set_unit]
  exact Iff.rfl

/-- Row r of the result array is in row block r / 1000, and every point writes its block back. -/
theorem residCoverAll (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  obtain ⟨t, ht⟩ := residOnto ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [residMemBlk]
  intro a
  match a with
  | ⟨0, _⟩ =>
    show win0_5.index t (0 : Fin 2) * 1000 ≤ (i 0).val ∧ (i 0).val < win0_5.index t (0 : Fin 2) * 1000 + 1000
    omega
  | ⟨1, _⟩ =>
    show win0_5.index t (1 : Fin 2) * 256 ≤ (i 1).val ∧ (i 1).val < win0_5.index t (1 : Fin 2) * 256 + 256
    omega

/-! ## The result array -/

/-- After the last point the result array holds the residual stage of the whole arrays. -/
theorem resid_final (c : Dev nD) :
    (residDat (F := Ideal) V c).arrAt 5 cfg0.N
      = (Cert.Spec.residual (V c main_arg0) (V c main_arg4) (V c main_call0_v0) (V c main_arg6) (V c main_call0_v1) : S10000x256.Idx → EReal) :=
  (residDat (F := Ideal) V c).arrAt_eq_of_cover 5 (residWhole V c) (fun t _ => residFlushed V c t) residCoverAll

end Cert.KernelIdeal.Hand

end
-- ==== Proof.LatticeValue.lean ====
/-
  The lattice kernel's result array, from row blocks to the whole array.

  The grid has fifty points. Point t reads rows 200·t … 200·t + 199 of the adjacency matrix and of the features (the
  row copy), the whole of the features again (the right factor of the product with the adjacency rows), both weight
  matrices and both bias rows, and writes rows 200·t … 200·t + 199 of the result. The stored value is the lattice
  stage of the loaded blocks, and the lattice stage is row-wise in the adjacency matrix and in the row copy of the
  features. So what point t writes back is block t of the lattice stage of the whole arrays; the fifty blocks tile
  the 10000 rows (row r lies in block r / 200) and every point writes its block back; hence after the last point the
  result array is the lattice stage of the whole arrays.
-/
import proofs.«149621_j6356551598646_2_alg».proof.Proof.LatticeBody
import proofs.«149621_j6356551598646_2_alg».proof.Proof.PayloadSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The zero offsets of a whole-block rectangle, spelt as the constant function. -/
theorem latZero : (![0, 0] : Fin 2 → Nat) = fun _ => 0 := funext fun a => by fin_cases a <;> rfl

/-! ## The block indices over the grid -/

/-- The index maps, decided once over the fifty grid points: the adjacency block, the row copy of the features and
    the result block are all row block t, column block 0; the features as a right factor, the weight matrices and
    the bias rows stay at block (0, 0). -/
theorem latIdx : ∀ t : Fin cfg1.N, win1_0.index t (0 : Fin 2) = t.val ∧ win1_0.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every row block is some point's. -/
theorem latOnto : ∀ q : Fin 50, ∃ t : Fin cfg1.N, win1_7.index t = ![q.val, 0] :=
  (by decide +kernel : ∀ q : Fin 50, ∃ t : Fin grid1.N, win1_7.index t = ![q.val, 0])

/-! ## The input blocks as parts of their arrays -/

/-- The adjacency block at point t is rows 200·t … 200·t + 199 of the adjacency matrix. -/
theorem latBlk0 (c : Dev nD) (t : Fin cfg1.N) (y : S200x10000.Idx) (k : S10000x10000.Idx)
    (hk0 : (k 0).val = t.val * 200 + (y 0).val) (hk1 : (k 1).val = (y 1).val) :
    (iblk1 V c 0 t : Vec Ideal S200x10000 .f32) y = (V c main_arg1 : S10000x10000.Idx → Elt Ideal .f32) k := by
  obtain ⟨e0, e1, -⟩ := latIdx t
  show V c main_arg1 (((cfg1.win 0).blk t).view.emb y) = V c main_arg1 k
  congr 1
  funext a
  apply Fin.ext
  match a with
  | ⟨0, _⟩ => show win1_0.index t (0 : Fin 2) * 200 + 1 * (y 0).val = (k 0).val; omega
  | ⟨1, _⟩ => show win1_0.index t (1 : Fin 2) * 10000 + 1 * (y 1).val = (k 1).val; omega

/-- The row copy of the features at point t is rows 200·t … 200·t + 199 of the features. -/
theorem latBlk2 (c : Dev nD) (t : Fin cfg1.N) (y : S200x256.Idx) (k : S10000x256.Idx)
    (hk0 : (k 0).val = t.val * 200 + (y 0).val) (hk1 : (k 1).val = (y 1).val) :
    (iblk1 V c 2 t : Vec Ideal S200x256 .bf16) y = (V c main_call0_v2 : S10000x256.Idx → Elt Ideal .bf16) k := by
  obtain ⟨-, -, e0, e1, -⟩ := latIdx t
  show V c main_call0_v2 (((cfg1.win 2).blk t).view.emb y) = V c main_call0_v2 k
  congr 1
  funext a
  apply Fin.ext
  match a with
  | ⟨0, _⟩ => show win1_2.index t (0 : Fin 2) * 200 + 1 * (y 0).val = (k 0).val; omega
  | ⟨1, _⟩ => show win1_2.index t (1 : Fin 2) * 256 + 1 * (y 1).val = (k 1).val; omega

/-- The features as a right factor: the block is the whole array. -/
theorem latBlk1 (c : Dev nD) (t : Fin cfg1.N) (y : S10000x256.Idx) :
    (iblk1 V c 1 t : Vec Ideal S10000x256 .bf16) y = (V c main_call0_v2 : S10000x256.Idx → Elt Ideal .bf16) y := by
  obtain ⟨-, -, -, -, -, -, e0, e1, -⟩ := latIdx t
  show V c main_call0_v2 (((cfg1.win 1).blk t).view.emb y) = V c main_call0_v2 y
  congr 1
  funext a
  apply Fin.ext
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- The first weight matrix's block is the matrix. -/
theorem latBlk3 (c : Dev nD) (t : Fin cfg1.N) (y : S256x256.Idx) :
    (iblk1 V c 3 t : Vec Ideal S256x256 .f32) y = (V c main_arg8 : S256x256.Idx → Elt Ideal .f32) y := by
  obtain ⟨-, -, -, -, -, -, -, -, e0, e1, -⟩ := latIdx t
  show V c main_arg8 (((cfg1.win 3).blk t).view.emb y) = V c main_arg8 y
  congr 1
  funext a
  apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The first bias row's block is the row. -/
theorem latBlk4 (c : Dev nD) (t : Fin cfg1.N) (y : S1x256.Idx) :
    (iblk1 V c 4 t : Vec Ideal S1x256 .f32) y = (V c main_call0_v3 : S1x256.Idx → Elt Ideal .f32) y := by
  obtain ⟨-, -, -, -, -, -, -, -, -, -, e0, e1, -⟩ := latIdx t
  show V c main_call0_v3 (((cfg1.win 4).blk t).view.emb y) = V c main_call0_v3 y
  congr 1
  funext a
  apply Fin.ext
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- The second weight matrix's block is the matrix. -/
theorem latBlk5 (c : Dev nD) (t : Fin cfg1.N) (y : S256x256.Idx) :
    (iblk1 V c 5 t : Vec Ideal S256x256 .f32) y = (V c main_arg10 : S256x256.Idx → Elt Ideal .f32) y := by
  obtain ⟨-, -, -, -, -, -, -, -, -, -, -, -, e0, e1, -⟩ := latIdx t
  show V c main_arg10 (((cfg1.win 5).blk t).view.emb y) = V c main_arg10 y
  congr 1
  funext a
  apply Fin.ext
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- The second bias row's block is the row. -/
theorem latBlk6 (c : Dev nD) (t : Fin cfg1.N) (y : S1x256.Idx) :
    (iblk1 V c 6 t : Vec Ideal S1x256 .f32) y = (V c main_call0_v4 : S1x256.Idx → Elt Ideal .f32) y := by
  obtain ⟨-, -, -, -, -, -, -, -, -, -, -, -, -, -, e0, e1⟩ := latIdx t
  show V c main_call0_v4 (((cfg1.win 6).blk t).view.emb y) = V c main_call0_v4 y
  congr 1
  funext a
  apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega

/-! ## One block of the result -/

/-- The lattice stage of a block of 200 consecutive rows of the adjacency matrix and of the row copy of the features,
    with the same right factor, weights and biases, is the same rows of the lattice stage of the whole arrays. -/
theorem latRows (A : Arr 10000 10000) (Vc : Arr 10000 256) (Vr : Arr 10000 256) (Wl1 : Arr 256 256) (bl1 : Arr 1 256)
    (Wl2 : Arr 256 256) (bl2 : Arr 1 256)
    (x0 : Arr 200 10000) (x1 : Arr 10000 256) (x2 : Arr 200 256) (x3 : Arr 256 256) (x4 : Arr 1 256) (x5 : Arr 256 256)
    (x6 : Arr 1 256) (q : Nat) (hq : q < 50)
    (h0 : ∀ (r : Fin 200) (d : Fin 10000) (k : S10000x10000.Idx), (k 0).val = q * 200 + r.val → (k 1).val = d.val → x0 (ix2 r d) = A k)
    (h2 : ∀ (r : Fin 200) (d : Fin 256) (k : S10000x256.Idx), (k 0).val = q * 200 + r.val → (k 1).val = d.val → x2 (ix2 r d) = Vr k)
    (h1 : x1 = Vc) (h3 : x3 = Wl1) (h4 : x4 = bl1) (h5 : x5 = Wl2) (h6 : x6 = bl2)
    (r : Fin 200) (d : Fin 256) (k : S10000x256.Idx) (hk0 : (k 0).val = q * 200 + r.val) (hk1 : (k 1).val = d.val) :
    Cert.Spec.lattice x0 x1 x2 x3 x4 x5 x6 (ix2 r d) = Cert.Spec.lattice A Vc Vr Wl1 bl1 Wl2 bl2 k := by
  subst h1 h3 h4 h5 h6
  have hk : k = ix2 (⟨q * 200 + r.val, by omega⟩ : Fin 10000) d := by
    funext a
    apply Fin.ext
    match a with
    | ⟨0, _⟩ => exact hk0
    | ⟨1, _⟩ => exact hk1
  rw [hk]
  exact Cert.Spec.lattice_rows (fun r : Fin 200 => (⟨q * 200 + r.val, by omega⟩ : Fin 10000)) A x0 x1 Vr x2 x3 x4 x5 x6
    (fun r d => h0 r d _ rfl rfl) (fun r d => h2 r d _ rfl rfl) r d

/-- The lattice stage of the arrays as the region finds them. -/
abbrev latWhole (c : Dev nD) : S10000x256.Idx → EReal :=
  Cert.Spec.lattice (V c main_arg1) (V c main_call0_v2) (V c main_call0_v2) (V c main_arg8) (V c main_call0_v3)
    (V c main_arg10) (V c main_call0_v4)

/-- What point t writes back is block t of the lattice stage of the whole arrays. -/
theorem latFlushed (c : Dev nD) (t : Fin cfg1.N) :
    (latDat (F := Ideal) V c).flushed 7 t = ((cfg1.win 7).blk t).view.read (Elt Ideal) (latWhole V c) := by
  show (cfg1.win 7).cut (grid1.coords t) ((latDat V c).after 7 t) = _
  rw [latAfter7]
  unfold latOut
  rw [View.canon_unit_zero latZero]
  simp only [View.ld_unit_zero (S := S200x10000) latZero, View.ld_unit_zero (S := S10000x256) latZero,
    View.ld_unit_zero (S := S200x256) latZero, View.ld_unit_zero (S := S256x256) latZero,
    View.ld_unit_zero (S := S1x256) latZero]
  have ht : t.val < 50 := lt_of_lt_of_eq t.isLt N_1
  obtain ⟨-, -, -, -, e0, e1, -⟩ := latIdx t
  funext j
  obtain ⟨r, d, rfl⟩ : ∃ (r : Fin 200) (d : Fin 256), j = ix2 r d := ⟨j 0, j 1, eq_ix2 j⟩
  show (k1_pay1 (F := Ideal) (iblk1 V c 0 t) (iblk1 V c 1 t) (iblk1 V c 5 t) (iblk1 V c 6 t) (iblk1 V c 2 t) (iblk1 V c 3 t) (iblk1 V c 4 t) : Arr 200 256) (ix2 r d)
    = latWhole V c (((cfg1.win 7).blk t).view.emb (ix2 r d))
  refine (congrFun (Cert.PayloadSpec.lattice_payload (iblk1 V c 0 t) (iblk1 V c 1 t) (iblk1 V c 5 t) (iblk1 V c 6 t) (iblk1 V c 2 t) (iblk1 V c 3 t) (iblk1 V c 4 t)) (ix2 r d)).trans ?_
  refine latRows (V c main_arg1) (V c main_call0_v2) (V c main_call0_v2) (V c main_arg8) (V c main_call0_v3) (V c main_arg10) (V c main_call0_v4)
    (iblk1 V c 0 t) (iblk1 V c 1 t) (iblk1 V c 2 t) (iblk1 V c 3 t) (iblk1 V c 4 t) (iblk1 V c 5 t) (iblk1 V c 6 t) t.val ht
    (fun r d k hk0 hk1 => latBlk0 V c t (ix2 r d) k hk0 hk1)
    (fun r d k hk0 hk1 => latBlk2 V c t (ix2 r d) k hk0 hk1)
    (funext (latBlk1 V c t)) (funext (latBlk3 V c t)) (funext (latBlk4 V c t)) (funext (latBlk5 V c t)) (funext (latBlk6 V c t))
    r d _ ?_ ?_
  · show win1_7.index t (0 : Fin 2) * 200 + 1 * r.val = t.val * 200 + r.val
    omega
  · show win1_7.index t (1 : Fin 2) * 256 + 1 * d.val = d.val
    omega

/-! ## The blocks tile the array -/

/-- An index of the result array is in point t's block iff each coordinate is in the block's range on its axis. -/
theorem latMemBlk (t : Fin cfg1.N) (i : S10000x256.Idx) :
    i ∈ ((cfg1.win 7).blk t).view.set ↔ ∀ a : Fin 2, win1_7.index t a * S200x256.size a ≤ (i a).val
      ∧ (i a).val < win1_7.index t a * S200x256.size a + S200x256.size a := by
  show i ∈ ((View.whole main_call0_v5).slice (win1_7.rect t)).set ↔ _
  rw [View.set_slice_whole, Rect.mem_set_unit]
  exact Iff.rfl

/-- Row r of the result array is in row block r / 200, and every point writes its block back. -/
theorem latCoverAll (i : S10000x256.Idx) :
    ∃ t : Fin cfg1.N, (cfg1.win 7).flush t = true ∧ i ∈ ((cfg1.win 7).blk t).view.set := by
  have hi0 : (i 0).val < 10000 := (i 0).isLt
  have hi1 : (i 1).val < 256 := (i 1).isLt
  obtain ⟨t, ht⟩ := latOnto ⟨(i 0).val / 200, by omega⟩
  have q0 : win1_7.index t (0 : Fin 2) = (i 0).val / 200 := congrFun ht 0
  have q1 : win1_7.index t (1 : Fin 2) = 0 := congrFun ht 1
  refine ⟨t, flush1_7 t, ?_⟩
  rw [latMemBlk]
  intro a
  match a with
  | ⟨0, _⟩ =>
    show win1_7.index t (0 : Fin 2) * 200 ≤ (i 0).val ∧ (i 0).val < win1_7.index t (0 : Fin 2) * 200 + 200
    omega
  | ⟨1, _⟩ =>
    show win1_7.index t (1 : Fin 2) * 256 ≤ (i 1).val ∧ (i 1).val < win1_7.index t (1 : Fin 2) * 256 + 256
    omega

/-! ## The result array -/

/-- After the last point the result array holds the lattice stage of the whole arrays. -/
theorem lat_final (c : Dev nD) :
    (latDat (F := Ideal) V c).arrAt 7 cfg1.N
      = (Cert.Spec.lattice (V c main_arg1) (V c main_call0_v2) (V c main_call0_v2) (V c main_arg8) (V c main_call0_v3)
          (V c main_arg10) (V c main_call0_v4) : S10000x256.Idx → EReal) :=
  (latDat (F := Ideal) V c).arrAt_eq_of_cover 7 (latWhole V c) (fun t _ => latFlushed V c t) latCoverAll

end Cert.KernelIdeal.Hand

end
-- ==== Proof.KernelValue.lean ====
/-
  The value of the kernel program's result buffer at the ideal values, as one function of the argument arrays.

  At the last boundary the result buffer holds the host tail of the lattice region's result array and the two index
  arrays. The lattice region's result array is the lattice stage of the adjacency matrix, the residual region's result
  array (as the right factor and row by row) and the second pair of weights and reshaped biases; the residual
  region's result array is the residual stage of the features and the first pair of weights and reshaped biases.
  A bias vector reshaped to one row is that vector as a row. No item writes an argument, so each argument is read at
  its launch contents.
-/
import proofs.«149621_j6356551598646_2_alg».proof.Proof.Run
import proofs.«149621_j6356551598646_2_alg».proof.Proof.ResidualValue
import proofs.«149621_j6356551598646_2_alg».proof.Proof.LatticeValue
import proofs.«149621_j6356551598646_2_alg».proof.Proof.LibLayerOps

noncomputable section

namespace Cert.KernelIdeal.Hand

open Idealize.ShloMosaic Idealize.ShloMosaic.TcCoe Idealize.SL.Sem
open Cert.KernelIdeal Cert.KernelIdeal.Gen Cert.GCN Cert.Layers Cert.Spec

/-- The host tail: gather the rows named by the source indices (a negative one wrapped around), add them into zeros at
    the rows named by the destination indices, and add the array gathered from. -/
def tailK (x : FVec Ideal S10000x256 .f32) (src dst : IVec S320000 32) : FVec Ideal S10000x256 .f32 :=
  addf (Host.scatterAdd (F := Ideal) scatter_S10000x256_S320000x1_S320000x256_1_0_0_1
      (broadcastInDim S10000x256 ![] bcast_S_S10000x256 (constant (F := Ideal) S_ .f32 0x00000000#32))
      (broadcastInDim S320000x1 ![0] bcast_S320000_S320000x1_0 dst)
      (Host.gather gather_S10000x256_S320000x1_S320000x256_1_0_n_n_0_1_1256 x
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10000#32))) src)))) x

set_option maxRecDepth 200000 in
/-- The result buffer after the host tail, from any contents before it. -/
theorem tail_value (W : Valuation τ sig (Elt Ideal)) :
    StableHlo.after (hostOps2 (F := Ideal)) W (Proc.devRef .tc main_v0)
      = tailK (W (Proc.devRef .tc main_call0_v5)) (W (Proc.devRef .tc main_arg2)) (W (Proc.devRef .tc main_arg3)) := by
  after_results
  rfl

/-- The four reshaped bias rows, from any contents before the reshapes. -/
theorem row_b1 (W : Valuation τ sig (Elt Ideal)) :
    StableHlo.after (hostOps0 (F := Ideal)) W (Proc.devRef .tc main_call0_v0) = shapeCast S1x512 (W (Proc.devRef .tc main_arg5)) shapeCasts_S512_S1x512 := by
  after_results
  rfl
theorem row_b2 (W : Valuation τ sig (Elt Ideal)) :
    StableHlo.after (hostOps0 (F := Ideal)) W (Proc.devRef .tc main_call0_v1) = shapeCast S1x256 (W (Proc.devRef .tc main_arg7)) shapeCasts_S256_S1x256 := by
  after_results
  rfl
theorem row_bl1 (W : Valuation τ sig (Elt Ideal)) :
    StableHlo.after (hostOps1 (F := Ideal)) W (Proc.devRef .tc main_call0_v3) = shapeCast S1x256 (W (Proc.devRef .tc main_arg9)) shapeCasts_S256_S1x256 := by
  after_results
  rfl
theorem row_bl2 (W : Valuation τ sig (Elt Ideal)) :
    StableHlo.after (hostOps1 (F := Ideal)) W (Proc.devRef .tc main_call0_v4) = shapeCast S1x256 (W (Proc.devRef .tc main_arg11)) shapeCasts_S256_S1x256 := by
  after_results
  rfl

variable (m : (ℓ : Loc nD τ sig) → Buf (Elt Ideal) ℓ)

/-- An argument at the residual region's entry is at its launch contents. -/
theorem arg_at1 (c : Dev nD) (r : Ref sig .tc) (h : r ∉ hostOps0_W) : VR1 m c r = m ((c : Thread nD τ).loc r) :=
  (V1_of m c r h).trans rfl

/-- An argument at the lattice region's entry is at its launch contents. -/
theorem arg_at3 (c : Dev nD) (r : Ref sig .tc) (h3 : r ∉ hostOps1_W) (h2 : r ∉ ([main_call0_v2] : List (Ref sig .tc))) (h1 : r ∉ hostOps0_W) :
    VR3 m c r = m ((c : Thread nD τ).loc r) := by
  show W3 m c r = _
  rw [← V3_eq]
  exact (V3_of m (outs m) c r h3).trans <| (V2_of m (outs m) c r h2).trans <| (V1_of m c r h1).trans rfl

/-- The residual region's result array: the residual stage of the features, weights and biases as launched. -/
theorem resArr_value (c : Dev nD) :
    (resArr (F := Ideal) m c : S10000x256.Idx → EReal) = residual (m ((c : Thread nD τ).loc main_arg0)) (m ((c : Thread nD τ).loc main_arg4))
      (asRow (m ((c : Thread nD τ).loc main_arg5))) (m ((c : Thread nD τ).loc main_arg6)) (asRow (m ((c : Thread nD τ).loc main_arg7))) := by
  have e0 : VR1 m c main_call0_v0 = (asRow (m ((c : Thread nD τ).loc main_arg5)) : Arr 1 512) :=
    (row_b1 (V0 m c)).trans (Cert.HostLayers.reshape_asRow _ _)
  have e1 : VR1 m c main_call0_v1 = (asRow (m ((c : Thread nD τ).loc main_arg7)) : Arr 1 256) :=
    (row_b2 (V0 m c)).trans (Cert.HostLayers.reshape_asRow _ _)
  unfold resArr
  rw [resid_final (VR1 m) c, arg_at1 m c main_arg0 (by decide), arg_at1 m c main_arg4 (by decide), arg_at1 m c main_arg6 (by decide), e0, e1]

/-- The feature array as the lattice region finds it is the residual region's result. -/
theorem feat_at3 (c : Dev nD) : VR3 m c main_call0_v2 = resArr m c := by
  show W3 m c main_call0_v2 = _
  rw [← V3_eq]
  refine (V3_of m (outs m) c main_call0_v2 (by decide)).trans ?_
  rw [V2_eq]
  exact Function.update_self (Proc.devRef .tc main_call0_v2 : DevRef τ sig) (resArr m c) (V1 m c)

/-- The lattice region's result array: the lattice stage of the adjacency matrix, the residual stage's result and the
    second pair of weights and biases as launched. -/
theorem latArr_value (c : Dev nD) :
    (latArr (F := Ideal) m c : S10000x256.Idx → EReal) = lattice (m ((c : Thread nD τ).loc main_arg1)) (resArr (F := Ideal) m c) (resArr (F := Ideal) m c)
      (m ((c : Thread nD τ).loc main_arg8)) (asRow (m ((c : Thread nD τ).loc main_arg9))) (m ((c : Thread nD τ).loc main_arg10)) (asRow (m ((c : Thread nD τ).loc main_arg11))) := by
  have a9 : Function.update (V1 m c) (Proc.devRef .tc main_call0_v2) (resArr m c) (Proc.devRef .tc main_arg9) = m ((c : Thread nD τ).loc main_arg9) :=
    (Function.update_of_ne (StableHlo.devRef_ne_of_ne (by decide)) _ _).trans ((V1_of m c main_arg9 (by decide)).trans rfl)
  have a11 : Function.update (V1 m c) (Proc.devRef .tc main_call0_v2) (resArr m c) (Proc.devRef .tc main_arg11) = m ((c : Thread nD τ).loc main_arg11) :=
    (Function.update_of_ne (StableHlo.devRef_ne_of_ne (by decide)) _ _).trans ((V1_of m c main_arg11 (by decide)).trans rfl)
  have e3 : VR3 m c main_call0_v3 = (asRow (m ((c : Thread nD τ).loc main_arg9)) : Arr 1 256) :=
    (row_bl1 _).trans ((congrArg (fun b => shapeCast S1x256 b shapeCasts_S256_S1x256) a9).trans (Cert.HostLayers.reshape_asRow _ _))
  have e4 : VR3 m c main_call0_v4 = (asRow (m ((c : Thread nD τ).loc main_arg11)) : Arr 1 256) :=
    (row_bl2 _).trans ((congrArg (fun b => shapeCast S1x256 b shapeCasts_S256_S1x256) a11).trans (Cert.HostLayers.reshape_asRow _ _))
  unfold latArr
  rw [lat_final (VR3 m) c, arg_at3 m c main_arg1 (by decide) (by decide) (by decide), arg_at3 m c main_arg8 (by decide) (by decide) (by decide),
    arg_at3 m c main_arg10 (by decide) (by decide) (by decide), feat_at3, e3, e4]

/-- The program's result as one function of the argument arrays: the host tail of the lattice stage of the residual stage. -/
def resultOf (c : Dev nD) : FVec Ideal S10000x256 .f32 := tailK
      (lattice (m ((c : Thread nD τ).loc main_arg1))
        (residual (m ((c : Thread nD τ).loc main_arg0)) (m ((c : Thread nD τ).loc main_arg4)) (asRow (m ((c : Thread nD τ).loc main_arg5))) (m ((c : Thread nD τ).loc main_arg6)) (asRow (m ((c : Thread nD τ).loc main_arg7))))
        (residual (m ((c : Thread nD τ).loc main_arg0)) (m ((c : Thread nD τ).loc main_arg4)) (asRow (m ((c : Thread nD τ).loc main_arg5))) (m ((c : Thread nD τ).loc main_arg6)) (asRow (m ((c : Thread nD τ).loc main_arg7))))
        (m ((c : Thread nD τ).loc main_arg8)) (asRow (m ((c : Thread nD τ).loc main_arg9))) (m ((c : Thread nD τ).loc main_arg10)) (asRow (m ((c : Thread nD τ).loc main_arg11))))
      (m ((c : Thread nD τ).loc main_arg2)) (m ((c : Thread nD τ).loc main_arg3))

/-- THE RESULT: at the last boundary the result buffer holds that function of the arguments as launched. -/
theorem result_value (c : Dev nD) : V5 m (outs m) c (Proc.devRef .tc main_v0) = resultOf m c := by
  unfold resultOf
  have h5 : V4 m (outs m) c (Proc.devRef .tc main_call0_v5) = latArr m c := by
    rw [V4_eq]; exact Function.update_self (Proc.devRef .tc main_call0_v5 : DevRef τ sig) (latArr m c) (W3 m c)
  have h2 : V4 m (outs m) c (Proc.devRef .tc main_arg2) = m ((c : Thread nD τ).loc main_arg2) :=
    (V4_of m (outs m) c main_arg2 (by decide)).trans <| (V3_of m (outs m) c main_arg2 (by decide)).trans <| (V2_of m (outs m) c main_arg2 (by decide)).trans <| (V1_of m c main_arg2 (by decide)).trans rfl
  have h3 : V4 m (outs m) c (Proc.devRef .tc main_arg3) = m ((c : Thread nD τ).loc main_arg3) :=
    (V4_of m (outs m) c main_arg3 (by decide)).trans <| (V3_of m (outs m) c main_arg3 (by decide)).trans <| (V2_of m (outs m) c main_arg3 (by decide)).trans <| (V1_of m c main_arg3 (by decide)).trans rfl
  show StableHlo.after hostOps2 (V4 m (outs m) c) (Proc.devRef .tc main_v0) = _
  rw [tail_value, h5, h2, h3]
  refine congrArg (fun x => tailK x _ _) ?_
  exact (latArr_value m c).trans (by rw [resArr_value])

end Cert.KernelIdeal.Hand

end
-- ==== Proof.RefSpec.lean ====
/-
  The value of the reference, as one expression of its twelve arguments.

  The first operations of the reference are dense layers: a plain matrix product on the host is the matrix product, a
  bias vector broadcast to one row and then over all rows and added is that vector, as a row, added to every row, and the
  maximum with the broadcast scalar zero is the maximum with zero. So the features after the residual stage are
  `residual X W1 b1 W2 b2`, and the array handed to the last operations is the lattice stage of the adjacency matrix and
  of those features (once as the right factor, once row by row). The last operations — wrap the negative source indices,
  gather the rows at the source indices, add them up at the destination indices into a zero array, and add the array
  itself — are kept as one function `tail` of that array and of the two index vectors: nothing here looks inside it.
-/
import proofs.«149621_j6356551598646_2_alg».proof.Proof.Gen.ReferenceIdeal.Read
import proofs.«149621_j6356551598646_2_alg».proof.Proof.LibLayerOps
import proofs.«149621_j6356551598646_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.GCN Cert.Layers Cert.HostLayers Cert.Spec

/-- The last operations of the reference as one function of the array `v2` they start from and of the source and
    destination index vectors: a negative source index is moved up by the number of rows; the rows of `v2` at the source
    indices are gathered; they are added up, at the destination indices, into an array of zeros; and `v2` is added. -/
def tail (v2 : FVec Ideal S10000x256 .f32) (src dst : IVec S320000 32) : FVec Ideal S10000x256 .f32 :=
  addf
    (Host.scatterAdd (F := Ideal) scatter_S10000x256_S320000x1_S320000x256_1_0_0_1
      (broadcastInDim S10000x256 ![] bcast_S_S10000x256 (constant (F := Ideal) S_ .f32 0x00000000#32))
      (broadcastInDim S320000x1 ![0] bcast_S320000_S320000x1_0 dst)
      (Host.gather gather_S10000x256_S320000x1_S320000x256_1_0_n_n_0_1_1256 v2
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10000#32))) src))))
    v2

section Stages

variable (x0 : (⟨S10000x256, .f32⟩ : BufTy).Contents (Elt Ideal)) (x1 : (⟨S10000x10000, .f32⟩ : BufTy).Contents (Elt Ideal))
  (x2 x3 : (⟨S320000, .i32⟩ : BufTy).Contents (Elt Ideal))
  (x4 : (⟨S256x512, .f32⟩ : BufTy).Contents (Elt Ideal)) (x5 : (⟨S512, .f32⟩ : BufTy).Contents (Elt Ideal))
  (x6 : (⟨S512x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))

/-- The hidden layer of the residual stage: max(X·W1 + b1, 0). -/
theorem hidden_eq :
    (val_main_v5 (F := Ideal) x0 x4 x5 : Arr 10000 512) = relu (addRow (mm x0 x4) (asRow x5)) := by
  unfold val_main_v5 val_main_v4 val_main_cst val_main_v3 val_main_v2 val_main_v1 val_main_v0
  rw [hostDot_plain dot_S10000x256_S256x512_S10000x512_1_0_0_1_n_n rfl none, host_addRow, host_relu] <;> rfl

/-- The features after the residual stage. -/
theorem residual_eq :
    (val_main_v12 (F := Ideal) x0 x4 x5 x6 x7 : Arr 10000 256) = residual x0 x4 (asRow x5) x6 (asRow x7) := by
  unfold val_main_v12 val_main_v11 val_main_cst_0 val_main_v10 val_main_v9 val_main_v8 val_main_v7 val_main_v6
  rw [hidden_eq, hostDot_plain dot_S10000x512_S512x256_S10000x256_1_0_0_1_n_n rfl none, host_addRow, host_relu]
  rfl

/-- The array handed to the last operations is the lattice stage of the adjacency matrix and of the features after
    the residual stage. -/
theorem lattice_eq :
    (val_main_v26 (F := Ideal) x0 x1 x4 x5 x6 x7 x8 x9 x10 x11 : Arr 10000 256)
      = lattice x1 (residual x0 x4 (asRow x5) x6 (asRow x7)) (residual x0 x4 (asRow x5) x6 (asRow x7))
          x8 (asRow x9) x10 (asRow x11) := by
  unfold val_main_v26 val_main_v25 val_main_v24 val_main_cst_2 val_main_v23 val_main_v22 val_main_v21 val_main_v20
    val_main_v19 val_main_v18 val_main_v17 val_main_cst_1 val_main_v16 val_main_v15 val_main_v14 val_main_v13
  rw [residual_eq, hostDot_plain dot_S10000x256_S256x256_S10000x256_1_0_0_1_n_n rfl none,
    hostDot_plain dot_S10000x256_S256x256_S10000x256_1_0_0_1_n_n rfl none,
    hostDot_plain dot_S10000x10000_S10000x256_S10000x256_1_0_0_1_n_n rfl none,
    host_addRow, host_addRow, host_relu, host_relu]
  rfl

/-- The last operations start from that array: the reference's result is `tail` of it. -/
theorem tail_eq :
    val_main_v37 (F := Ideal) x0 x1 x2 x3 x4 x5 x6 x7 x8 x9 x10 x11
      = tail (val_main_v26 (F := Ideal) x0 x1 x4 x5 x6 x7 x8 x9 x10 x11) x2 x3 := rfl

/-- The reference's result, as a function of its twelve arguments. -/
theorem ref_value_args :
    val_main_v37 (F := Ideal) x0 x1 x2 x3 x4 x5 x6 x7 x8 x9 x10 x11
      = tail (lattice x1 (residual x0 x4 (asRow x5) x6 (asRow x7)) (residual x0 x4 (asRow x5) x6 (asRow x7))
          x8 (asRow x9) x10 (asRow x11)) x2 x3 := by
  rw [tail_eq, lattice_eq]

end Stages

/-- The term the run of the reference leaves in its result, as that function of the arguments' contents. -/
theorem ref_value (m : (ℓ : Loc nD τ sig) → Buf (Elt Ideal) ℓ) (c : Dev nD) :
    Cert.ReferenceIdeal.Value.res_main_v37 (F := Ideal) m c
      = tail (lattice (m ((c.tc : Thread nD τ).loc main_arg1) : (⟨S10000x10000, .f32⟩ : BufTy).Contents (Elt Ideal))
            (residual (m ((c.tc : Thread nD τ).loc main_arg0) : (⟨S10000x256, .f32⟩ : BufTy).Contents (Elt Ideal))
              (m ((c.tc : Thread nD τ).loc main_arg4) : (⟨S256x512, .f32⟩ : BufTy).Contents (Elt Ideal))
              (asRow (m ((c.tc : Thread nD τ).loc main_arg5) : (⟨S512, .f32⟩ : BufTy).Contents (Elt Ideal)))
              (m ((c.tc : Thread nD τ).loc main_arg6) : (⟨S512x256, .f32⟩ : BufTy).Contents (Elt Ideal))
              (asRow (m ((c.tc : Thread nD τ).loc main_arg7) : (⟨S256, .f32⟩ : BufTy).Contents (Elt Ideal))))
            (residual (m ((c.tc : Thread nD τ).loc main_arg0) : (⟨S10000x256, .f32⟩ : BufTy).Contents (Elt Ideal))
              (m ((c.tc : Thread nD τ).loc main_arg4) : (⟨S256x512, .f32⟩ : BufTy).Contents (Elt Ideal))
              (asRow (m ((c.tc : Thread nD τ).loc main_arg5) : (⟨S512, .f32⟩ : BufTy).Contents (Elt Ideal)))
              (m ((c.tc : Thread nD τ).loc main_arg6) : (⟨S512x256, .f32⟩ : BufTy).Contents (Elt Ideal))
              (asRow (m ((c.tc : Thread nD τ).loc main_arg7) : (⟨S256, .f32⟩ : BufTy).Contents (Elt Ideal))))
            (m ((c.tc : Thread nD τ).loc main_arg8) : (⟨S256x256, .f32⟩ : BufTy).Contents (Elt Ideal))
            (asRow (m ((c.tc : Thread nD τ).loc main_arg9) : (⟨S256, .f32⟩ : BufTy).Contents (Elt Ideal)))
            (m ((c.tc : Thread nD τ).loc main_arg10) : (⟨S256x256, .f32⟩ : BufTy).Contents (Elt Ideal))
            (asRow (m ((c.tc : Thread nD τ).loc main_arg11) : (⟨S256, .f32⟩ : BufTy).Contents (Elt Ideal))))
          (m ((c.tc : Thread nD τ).loc main_arg2) : (⟨S320000, .i32⟩ : BufTy).Contents (Elt Ideal))
          (m ((c.tc : Thread nD τ).loc main_arg3) : (⟨S320000, .i32⟩ : BufTy).Contents (Elt Ideal)) :=
  (val_main_v37_eq (F := Ideal) m c).trans (ref_value_args _ _ _ _ _ _ _ _ _ _ _ _)

end Cert.ReferenceIdeal.RefValue

end
-- ==== Proof.lean ====
/-
  The certificate: the message-passing block computed by two pipelined kernels and a host tail, against its plain
  reference.

  Frames. Each kernel program runs through five segments: two bias reshapes, the residual kernel over ten blocks of
  1000 rows, two more reshapes, the lattice kernel over fifty blocks of 200 rows, and the gather / scatter-add tail.
  Each body loads its blocks whole, computes, and stores the whole output block; no item writes an argument. The
  reference is a straight line of host operations.

  Values, at the ideal instance. A change of float format is the identity, a matrix product into a zero accumulator is
  the matrix product, and a row block of a product is the product of the row block. So the ten row blocks the first
  kernel writes are the rows of max(X + (max(X·W1 + b1, 0)·W2 + b2), 0) computed at once, and the fifty row blocks the
  second writes are the rows of max(V·Wl1 + bl1, 0) + max((A·V)·Wl2 + bl2, 0): what the reference computes with whole
  matrix products. Both programs then apply the same gather, scatter-add and sum to that array and the two index
  arrays. No law used needs finite entries.
-/
import proofs.«149621_j6356551598646_2_alg».proof.Defs
import proofs.«149621_j6356551598646_2_alg».proof.Proof.Gen.Kernel
import proofs.«149621_j6356551598646_2_alg».proof.Proof.Gen.KernelIdeal
import proofs.«149621_j6356551598646_2_alg».proof.Proof.Gen.ReferenceIdeal
import proofs.«149621_j6356551598646_2_alg».proof.Proof.Gen.Pre_finite_inputs
import proofs.«149621_j6356551598646_2_alg».proof.Proof.RunBits
import proofs.«149621_j6356551598646_2_alg».proof.Proof.KernelValue
import proofs.«149621_j6356551598646_2_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel program is the kernel program's own text. -/
theorem preserves : Cert.preserves_Kernel_KernelIdeal := trivial

section
open Cert.KernelIdeal Cert.KernelIdeal.Gen Cert.KernelIdeal.Hand

/-- An unscoped TensorCore buffer of the kernel program, read off the run's last boundary. -/
theorem read_at {r : PUnit × MemSt nD τ sig (Elt Ideal)} {m : (ℓ : Loc nD τ sig) → Buf (Elt Ideal) ℓ} {c : Dev nD}
    (h : ∀ b ∈ Pipeline.ucRefs τ sig, r.2.mem (((c : Thread nD τ)).1, b) = V5 m (outs m) c b) (b : Ref sig .tc)
    (hb : ¬ (Proc.devRef .tc b : DevRef τ sig).isScoped) :
    r.2.mem ((c.tc : Thread nD τ).loc b) = V5 m (outs m) c (Proc.devRef .tc b) :=
  h (Proc.devRef .tc b) (Finset.mem_filter.mpr ⟨StableHlo.devRef_mem_tcRefs b, hb⟩)

end

/-- Both idealized programs end with the host tail of the lattice stage of the residual stage of the arguments. -/
theorem algebraic : Cert.algebraic_KernelIdeal_ReferenceIdeal := by
  intro m ρ m' ρ' _ hagree
  refine ⟨fun c => Cert.KernelIdeal.Hand.resultOf m c, ?_, ?_⟩
  · refine (θ_run Cert.KernelIdeal.defs _ _).mono (fun r h c => ?_) (Cert.KernelIdeal.Hand.run_all (F := Ideal) m ρ)
    exact ⟨(read_at (h c) Cert.KernelIdeal.main_v0 (by decide)).trans (Cert.KernelIdeal.Hand.result_value m c),
      (read_at (h c) Cert.KernelIdeal.main_arg0 (by decide)).trans (Cert.KernelIdeal.Gen.V5_main_arg0 m _ c),
      (read_at (h c) Cert.KernelIdeal.main_arg1 (by decide)).trans (Cert.KernelIdeal.Gen.V5_main_arg1 m _ c),
      (read_at (h c) Cert.KernelIdeal.main_arg2 (by decide)).trans (Cert.KernelIdeal.Gen.V5_main_arg2 m _ c),
      (read_at (h c) Cert.KernelIdeal.main_arg3 (by decide)).trans (Cert.KernelIdeal.Gen.V5_main_arg3 m _ c),
      (read_at (h c) Cert.KernelIdeal.main_arg4 (by decide)).trans (Cert.KernelIdeal.Gen.V5_main_arg4 m _ c),
      (read_at (h c) Cert.KernelIdeal.main_arg5 (by decide)).trans (Cert.KernelIdeal.Gen.V5_main_arg5 m _ c),
      (read_at (h c) Cert.KernelIdeal.main_arg6 (by decide)).trans (Cert.KernelIdeal.Gen.V5_main_arg6 m _ c),
      (read_at (h c) Cert.KernelIdeal.main_arg7 (by decide)).trans (Cert.KernelIdeal.Gen.V5_main_arg7 m _ c),
      (read_at (h c) Cert.KernelIdeal.main_arg8 (by decide)).trans (Cert.KernelIdeal.Gen.V5_main_arg8 m _ c),
      (read_at (h c) Cert.KernelIdeal.main_arg9 (by decide)).trans (Cert.KernelIdeal.Gen.V5_main_arg9 m _ c),
      (read_at (h c) Cert.KernelIdeal.main_arg10 (by decide)).trans (Cert.KernelIdeal.Gen.V5_main_arg10 m _ c),
      (read_at (h c) Cert.KernelIdeal.main_arg11 (by decide)).trans (Cert.KernelIdeal.Gen.V5_main_arg11 m _ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.RefValue.ref_value, h0, h1, h2, h3, h4, h5, h6, h7, h8, h9, h10, h11]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
